-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x128 : Shape := ⟨3, ![4, 2048, 128]⟩
abbrev S_ : Shape := ⟨0, ![]⟩

class Facts : Prop where
  bcast_S_S4x2048x128 : S_.BroadcastsInDim S4x2048x128 (![] : Fin 0 → Fin S4x2048x128.rank)
  reducesTo_S4x2048x128_S_d0_1_2 : S4x2048x128.ReducesTo [0, 1, 2] S_
  h_S_ : 0 < S_.numel

variable [Facts]

def fn {F : FTy → Type} [FloatOps F] (main_arg0 : FVec F S4x2048x128 .f32) (main_arg1 : FVec F S4x2048x128 .f32) : IVec S_ 1 :=
  let main_v0 : FVec F S4x2048x128 .f32 := Host.absf main_arg0
  let main_cst : FVec F S_ .f32 := constant S_ .f32 0x7F800000#32
  let main_v1 : FVec F S4x2048x128 .f32 := broadcastInDim S4x2048x128 ![] bcast_S_S4x2048x128 main_cst
  let main_v2 : IVec S4x2048x128 1 := cmpf .olt main_v0 main_v1
  let main_c : IVec S_ 1 := constantI S_ 1 1#1
  let main_v3 : IVec S_ 1 := (fun x v => Host.reduce IntOp.andi x v reducesTo_S4x2048x128_S_d0_1_2 h_S_) main_v2 main_c
  let main_v4 : FVec F S4x2048x128 .f32 := Host.absf main_arg1
  let main_cst_0 : FVec F S_ .f32 := constant S_ .f32 0x7F800000#32
  let main_v5 : FVec F S4x2048x128 .f32 := broadcastInDim S4x2048x128 ![] bcast_S_S4x2048x128 main_cst_0
  let main_v6 : IVec S4x2048x128 1 := cmpf .olt main_v4 main_v5
  let main_c_1 : IVec S_ 1 := constantI S_ 1 1#1
  let main_v7 : IVec S_ 1 := (fun x v => Host.reduce IntOp.andi x v reducesTo_S4x2048x128_S_d0_1_2 h_S_) main_v6 main_c_1
  let main_v8 : IVec S_ 1 := andi main_v3 main_v7
  main_v8
-- ==== Kernel.lean ====
abbrev S4x2048x128 : Shape := ⟨3, ![4, 2048, 128]⟩
abbrev S4x1x2048 : Shape := ⟨3, ![4, 1, 2048]⟩
abbrev S1x2048x128 : Shape := ⟨3, ![1, 2048, 128]⟩
abbrev S1x1x2048 : Shape := ⟨3, ![1, 1, 2048]⟩
abbrev S1x2048 : Shape := ⟨2, ![1, 2048]⟩
abbrev S2048x128 : Shape := ⟨2, ![2048, 128]⟩
abbrev S2048 : Shape := ⟨1, ![2048]⟩
abbrev S1x256x128 : Shape := ⟨3, ![1, 256, 128]⟩
abbrev S256x128 : Shape := ⟨2, ![256, 128]⟩
abbrev S256 : Shape := ⟨1, ![256]⟩
abbrev S256x1 : Shape := ⟨2, ![256, 1]⟩
abbrev S256x2048 : Shape := ⟨2, ![256, 2048]⟩
abbrev S_ : Shape := ⟨0, ![]⟩

abbrev nBuf : Space → Nat
  | .hbm => 13
  | .vmem => 12
  | .smem => 0
  | _ => 0

abbrev bufTy : (tb : Table) → Fin (tcTables nBuf tb) → BufTy
  | .hbm, ⟨0, _⟩ => ⟨S4x2048x128, .f32⟩
  | .hbm, ⟨1, _⟩ => ⟨S4x2048x128, .f32⟩
  | .hbm, ⟨2, _⟩ => ⟨S4x1x2048, .f32⟩
  | .hbm, ⟨3, _⟩ => ⟨S4x1x2048, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .local _ .vmem, ⟨0, _⟩ => ⟨S1x2048x128, .f32⟩
  | .local _ .vmem, ⟨1, _⟩ => ⟨S1x2048x128, .f32⟩
  | .local _ .vmem, ⟨2, _⟩ => ⟨S1x2048x128, .f32⟩
  | .local _ .vmem, ⟨3, _⟩ => ⟨S1x2048x128, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x2048, .f32⟩
  | .local _ .vmem, ⟨9, _⟩ => ⟨S1x2048, .f32⟩
  | .local _ .vmem, ⟨10, _⟩ => ⟨S2048x128, .bf16⟩
  | .local _ .vmem, ⟨11, _⟩ => ⟨S2048x128, .bf16⟩
  | _, _ => ⟨S4x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_cst_2 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let arg1 : BitVec 32 := BitVec.ofNat 32 (i 1).val
  let c256_i32 : BitVec 32 := 256#32
  let v3 : BitVec 32 := Scalar.muli arg1 c256_i32
  v3
def k0_off1 (i : grid0.Coords) : Fin 3 → Nat :=
  let c0 : Index := 0#32
  let arg1 : BitVec 32 := BitVec.ofNat 32 (i 1).val
  let c256_i32 : BitVec 32 := 256#32
  let v3 : BitVec 32 := Scalar.muli arg1 c256_i32
  let v4 : BitVec 32 := v3
  let v5 : Index := Scalar.indexCast v4
  let c0_1 : Index := 0#32
  ![0, v5.toNat, 0]
def k0_off2 (i : grid0.Coords) : Fin 2 → Nat :=
  let arg1 : BitVec 32 := BitVec.ofNat 32 (i 1).val
  let c256_i32 : BitVec 32 := 256#32
  let v3 : BitVec 32 := Scalar.muli arg1 c256_i32
  let v4 : BitVec 32 := v3
  let v17 : Index := Scalar.indexCast v4
  let c0_5 : Index := 0#32
  ![v17.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  shapeCasts_S1x2048_S1x1x2048 : S1x2048.ShapeCasts S1x1x2048
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  reduces_S2048x128_S2048 : S2048x128.Reduces [1] S2048
  shapeCasts_S2048_S1x2048 : S2048.ShapeCasts S1x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  bitsLt_bf16_f32 : FTy.bits .bf16 < FTy.bits .f32
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  packedbf16_S2048x128_S2048x128_0_0 : (Rect.unit (s := S2048x128) ![0, 0] S2048x128.size inb_S2048x128_S2048x128_0_0).PackedRows (EltTy.packing .bf16)
  h_S1x256x128 : 0 < S1x256x128.numel
  shapeCasts_S1x256x128_S256x128 : S1x256x128.ShapeCasts S256x128
  reduces_S256x128_S256 : S256x128.Reduces [1] S256
  shapeCasts_S256_S256x1 : S256.ShapeCasts S256x1
  h_S256x128 : 0 < S256x128.numel
  broadcasts_S256x1_S256x2048 : S256x1.Broadcasts S256x2048
  broadcasts_S1x2048_S256x2048 : S1x2048.Broadcasts S256x2048
  reduces_S256x2048_S2048 : S256x2048.Reduces [0] S2048
  reducesTo_S4x1x2048_S_d0_1_2 : S4x1x2048.ReducesTo [0, 1, 2] S_
  h_S_ : 0 < S_.numel
  dot_S256x128_S2048x128_S256x2048_1_1_0_0_n_n_wf : DotDims.WF S256x128 S2048x128 S256x2048 [1] [1] [0] [0] [] []
  hrank0 : 0 < grid0.rank
  k0_mult1_dvd : ∀ i : grid0.Coords, 256 ∣ (k0_mult1 i).toNat
  k0_off1_inb : ∀ i : grid0.Coords, ∀ a, (k0_off1 i) a + S1x256x128.size a ≤ S1x2048x128.size a
  k0_off2_inb : ∀ i : grid0.Coords, ∀ a, (k0_off2 i) a + S256x128.size a ≤ S2048x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x128.size a ≤ S4x2048x128.size a
  hwx0_0 : ∀ i : grid0.Coords, EltTy.bits .f32 = 32 ∨ (Rect.block (s := S4x2048x128) S1x2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x128.size a ≤ S4x2048x128.size a
  hwx0_1 : ∀ i : grid0.Coords, EltTy.bits .f32 = 32 ∨ (Rect.block (s := S4x2048x128) S1x2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048.size a ≤ S4x1x2048.size a
  hwx0_2 : ∀ i : grid0.Coords, EltTy.bits .f32 = 32 ∨ (Rect.block (s := S4x1x2048) S1x1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x2048.size a ≤ S4x1x2048.size a
  hwx0_3 : ∀ i : grid0.Coords, EltTy.bits .f32 = 32 ∨ (Rect.block (s := S4x1x2048) S1x1x2048.size (cc0_transform_3 i) (hinb0_3 i)).WholeWords (EltTy.packing .f32)

variable [Facts₀]

def dot_S256x128_S2048x128_S256x2048_1_1_0_0_n_n : DotDims S256x128 S2048x128 S256x2048 where
  lhsContracting := [1]
  rhsContracting := [1]
  lhsNonContracting := [0]
  rhsNonContracting := [0]
  lhsBatch := []
  rhsBatch := []
  wf := dot_S256x128_S2048x128_S256x2048_1_1_0_0_n_n_wf

abbrev win0_0 : Pipeline.Window sig grid0 :=
  Pipeline.Window.ofSpec (Memref.whole main_arg0) S1x2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1x2048.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x2048x128 : Shape := ⟨3, ![4, 2048, 128]⟩
abbrev S_ : Shape := ⟨0, ![]⟩
abbrev S4x2048 : Shape := ⟨2, ![4, 2048]⟩
abbrev S4x2048x2048 : Shape := ⟨3, ![4, 2048, 2048]⟩
abbrev S4x2048x1 : Shape := ⟨3, ![4, 2048, 1]⟩
abbrev S4x1x2048 : Shape := ⟨3, ![4, 1, 2048]⟩

abbrev nBuf : Space → Nat
  | .hbm => 95
  | .vmem => 0
  | .smem => 0
  | _ => 0

abbrev bufTy : (tb : Table) → Fin (tcTables nBuf tb) → BufTy
  | .hbm, ⟨0, _⟩ => ⟨S4x2048x128, .f32⟩
  | .hbm, ⟨1, _⟩ => ⟨S4x2048x128, .f32⟩
  | .hbm, ⟨2, _⟩ => ⟨S4x2048x128, .f32⟩
  | .hbm, ⟨3, _⟩ => ⟨S_, .f32⟩
  | .hbm, ⟨4, _⟩ => ⟨S4x2048, .f32⟩
  | .hbm, ⟨5, _⟩ => ⟨S4x2048x2048, .f32⟩
  | .hbm, ⟨6, _⟩ => ⟨S4x2048x1, .f32⟩
  | .hbm, ⟨7, _⟩ => ⟨S4x1x2048, .f32⟩
  | .hbm, ⟨8, _⟩ => ⟨S4x2048x2048, .f32⟩
  | .hbm, ⟨9, _⟩ => ⟨S4x2048x2048, .f32⟩
  | .hbm, ⟨10, _⟩ => ⟨S4x2048x2048, .f32⟩
  | .hbm, ⟨11, _⟩ => ⟨S_, .f32⟩
  | .hbm, ⟨12, _⟩ => ⟨S4x2048x2048, .f32⟩
  | .hbm, ⟨13, _⟩ => ⟨S4x2048x2048, .f32⟩
  | .hbm, ⟨14, _⟩ => ⟨S4x2048x2048, .f32⟩
  | .hbm, ⟨15, _⟩ => ⟨S_, .f32⟩
  | .hbm, ⟨16, _⟩ => ⟨S4x2048x2048, .f32⟩
  | .hbm, ⟨17, _⟩ => ⟨S4x2048x2048, .f32⟩
  | .hbm, ⟨18, _⟩ => ⟨S_, .f32⟩
  | .hbm, ⟨19, _⟩ => ⟨S4x2048x2048, .f32⟩
  | .hbm, ⟨20, _⟩ => ⟨S4x2048x2048, .i1⟩
  | .hbm, ⟨21, _⟩ => ⟨S_, .f32⟩
  | .hbm, ⟨22, _⟩ => ⟨S_, .f32⟩
  | .hbm, ⟨23, _⟩ => ⟨S4x2048x2048, .f32⟩
  | .hbm, ⟨24, _⟩ => ⟨S4x2048x2048, .f32⟩
  | .hbm, ⟨25, _⟩ => ⟨S_, .f32⟩
  | .hbm, ⟨26, _⟩ => ⟨S4x2048x2048, .f32⟩
  | .hbm, ⟨27, _⟩ => ⟨S4x2048x2048, .i1⟩
  | .hbm, ⟨28, _⟩ => ⟨S4x2048x2048, .f32⟩
  | .hbm, ⟨29, _⟩ => ⟨S_, .f32⟩
  | .hbm, ⟨30, _⟩ => ⟨S_, .f32⟩
  | .hbm, ⟨31, _⟩ => ⟨S4x2048x2048, .f32⟩
  | .hbm, ⟨32, _⟩ => ⟨S4x2048x2048, .f32⟩
  | .hbm, ⟨33, _⟩ => ⟨S4x2048x128, .f32⟩
  | .hbm, ⟨34, _⟩ => ⟨S_, .f32⟩
  | .hbm, ⟨35, _⟩ => ⟨S4x2048, .f32⟩
  | .hbm, ⟨36, _⟩ => ⟨S4x2048x2048, .f32⟩
  | .hbm, ⟨37, _⟩ => ⟨S4x2048x1, .f32⟩
  | .hbm, ⟨38, _⟩ => ⟨S4x1x2048, .f32⟩
  | .hbm, ⟨39, _⟩ => ⟨S4x2048x2048, .f32⟩
  | .hbm, ⟨40, _⟩ => ⟨S4x2048x2048, .f32⟩
  | .hbm, ⟨41, _⟩ => ⟨S4x2048x2048, .f32⟩
  | .hbm, ⟨42, _⟩ => ⟨S_, .f32⟩
  | .hbm, ⟨43, _⟩ => ⟨S4x2048x2048, .f32⟩
  | .hbm, ⟨44, _⟩ => ⟨S4x2048x2048, .f32⟩
  | .hbm, ⟨45, _⟩ => ⟨S4x2048x2048, .f32⟩
  | .hbm, ⟨46, _⟩ => ⟨S_, .f32⟩
  | .hbm, ⟨47, _⟩ => ⟨S4x2048x2048, .f32⟩
  | .hbm, ⟨48, _⟩ => ⟨S4x2048x2048, .f32⟩
  | .hbm, ⟨49, _⟩ => ⟨S_, .f32⟩
  | .hbm, ⟨50, _⟩ => ⟨S4x2048x2048, .f32⟩
  | .hbm, ⟨51, _⟩ => ⟨S4x2048x2048, .i1⟩
  | .hbm, ⟨52, _⟩ => ⟨S_, .f32⟩
  | .hbm, ⟨53, _⟩ => ⟨S_, .f32⟩
  | .hbm, ⟨54, _⟩ => ⟨S4x2048x2048, .f32⟩
  | .hbm, ⟨55, _⟩ => ⟨S4x2048x2048, .f32⟩
  | .hbm, ⟨56, _⟩ => ⟨S_, .f32⟩
  | .hbm, ⟨57, _⟩ => ⟨S4x2048x2048, .f32⟩
  | .hbm, ⟨58, _⟩ => ⟨S4x2048x2048, .i1⟩
  | .hbm, ⟨59, _⟩ => ⟨S4x2048x2048, .f32⟩
  | .hbm, ⟨60, _⟩ => ⟨S_, .f32⟩
  | .hbm, ⟨61, _⟩ => ⟨S_, .f32⟩
  | .hbm, ⟨62, _⟩ => ⟨S4x2048x2048, .f32⟩
  | .hbm, ⟨63, _⟩ => ⟨S4x2048x2048, .f32⟩
  | .hbm, ⟨64, _⟩ => ⟨S4x2048x2048, .f32⟩
  | .hbm, ⟨65, _⟩ => ⟨S4x2048x2048, .f32⟩
  | .hbm, ⟨66, _⟩ => ⟨S4x2048x2048, .f32⟩
  | .hbm, ⟨67, _⟩ => ⟨S_, .f32⟩
  | .hbm, ⟨68, _⟩ => ⟨S4x2048x2048, .f32⟩
  | .hbm, ⟨69, _⟩ => ⟨S4x2048x2048, .f32⟩
  | .hbm, ⟨70, _⟩ => ⟨S_, .f32⟩
  | .hbm, ⟨71, _⟩ => ⟨S4x2048x2048, .f32⟩
  | .hbm, ⟨72, _⟩ => ⟨S4x2048x2048, .f32⟩
  | .hbm, ⟨73, _⟩ => ⟨S4x2048x2048, .f32⟩
  | .hbm, ⟨74, _⟩ => ⟨S4x2048x2048, .f32⟩
  | .hbm, ⟨75, _⟩ => ⟨S4x2048x2048, .f32⟩
  | .hbm, ⟨76, _⟩ => ⟨S_, .f32⟩
  | .hbm, ⟨77, _⟩ => ⟨S4x2048x2048, .f32⟩
  | .hbm, ⟨78, _⟩ => ⟨S4x2048x2048, .f32⟩
  | .hbm, ⟨79, _⟩ => ⟨S_, .f32⟩
  | .hbm, ⟨80, _⟩ => ⟨S4x2048x2048, .f32⟩
  | .hbm, ⟨81, _⟩ => ⟨S4x2048x2048, .f32⟩
  | .hbm, ⟨82, _⟩ => ⟨S4x2048x2048, .f32⟩
  | .hbm, ⟨83, _⟩ => ⟨S4x2048x2048, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S4x2048x2048, .f32⟩
  | .hbm, ⟨89, _⟩ => ⟨S4x2048x2048, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | _, _ => ⟨S4x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_call0_v0 : Ref sig .tc := ⟨.hbm, 22, rfl⟩
abbrev main_call0_v1 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_call1_v0 : Ref sig .tc := ⟨.hbm, 30, rfl⟩
abbrev main_call1_v1 : Ref sig .tc := ⟨.hbm, 31, rfl⟩
abbrev main_v19 : Ref sig .tc := ⟨.hbm, 32, rfl⟩
abbrev main_v20 : Ref sig .tc := ⟨.hbm, 33, rfl⟩
abbrev main_cst_6 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_7 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_8 : Ref sig .tc := ⟨.hbm, 46, rfl⟩
abbrev main_v31 : Ref sig .tc := ⟨.hbm, 47, rfl⟩
abbrev main_v32 : Ref sig .tc := ⟨.hbm, 48, rfl⟩
abbrev main_cst_9 : Ref sig .tc := ⟨.hbm, 49, rfl⟩
abbrev main_v33 : Ref sig .tc := ⟨.hbm, 50, rfl⟩
abbrev main_v34 : Ref sig .tc := ⟨.hbm, 51, rfl⟩
abbrev main_cst_10 : Ref sig .tc := ⟨.hbm, 52, rfl⟩
abbrev main_call2_v0 : Ref sig .tc := ⟨.hbm, 53, rfl⟩
abbrev main_call2_v1 : Ref sig .tc := ⟨.hbm, 54, rfl⟩
abbrev main_v35 : Ref sig .tc := ⟨.hbm, 55, rfl⟩
abbrev main_cst_11 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_12 : Ref sig .tc := ⟨.hbm, 60, rfl⟩
abbrev main_call3_v0 : Ref sig .tc := ⟨.hbm, 61, rfl⟩
abbrev main_call3_v1 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_13 : Ref sig .tc := ⟨.hbm, 67, rfl⟩
abbrev main_v43 : Ref sig .tc := ⟨.hbm, 68, rfl⟩
abbrev main_v44 : Ref sig .tc := ⟨.hbm, 69, rfl⟩
abbrev main_cst_14 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_15 : Ref sig .tc := ⟨.hbm, 76, rfl⟩
abbrev main_v50 : Ref sig .tc := ⟨.hbm, 77, rfl⟩
abbrev main_v51 : Ref sig .tc := ⟨.hbm, 78, rfl⟩
abbrev main_cst_16 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_17 : Ref sig .tc := ⟨.hbm, 84, rfl⟩
abbrev main_v56 : Ref sig .tc := ⟨.hbm, 85, rfl⟩
abbrev main_cst_18 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_cst_19 : Ref sig .tc := ⟨.hbm, 90, rfl⟩
abbrev main_v60 : Ref sig .tc := ⟨.hbm, 91, rfl⟩
abbrev main_cst_20 : Ref sig .tc := ⟨.hbm, 92, rfl⟩
abbrev main_v61 : Ref sig .tc := ⟨.hbm, 93, rfl⟩
abbrev main_v62 : Ref sig .tc := ⟨.hbm, 94, rfl⟩

abbrev nD : Nat := 1
abbrev τ : Topo := Topo.v7x

variable {F : FTy → Type} [FloatOps F]

class Facts₀ : Prop where
  reducesTo_S4x2048x128_S4x2048_d2 : S4x2048x128.ReducesTo [2] S4x2048
  h_S_ : 0 < S_.numel
  bcast_S4x2048_S4x2048x1_0_1 : S4x2048.BroadcastsInDim S4x2048x1 (![0, 1] : Fin 2 → Fin S4x2048x1.rank)
  bcast_S4x2048_S4x1x2048_0_2 : S4x2048.BroadcastsInDim S4x1x2048 (![0, 2] : Fin 2 → Fin S4x1x2048.rank)
  bcast_S4x2048x1_S4x2048x2048_0_1_2 : S4x2048x1.BroadcastsInDim S4x2048x2048 (![0, 1, 2] : Fin 3 → Fin S4x2048x2048.rank)
  bcast_S4x1x2048_S4x2048x2048_0_1_2 : S4x1x2048.BroadcastsInDim S4x2048x2048 (![0, 1, 2] : Fin 3 → Fin S4x2048x2048.rank)
  bcast_S_S4x2048x2048 : S_.BroadcastsInDim S4x2048x2048 (![] : Fin 0 → Fin S4x2048x2048.rank)
  reducesTo_S4x2048x2048_S_d0_1_2 : S4x2048x2048.ReducesTo [0, 1, 2] S_
  dot_S4x2048x128_S4x2048x128_S4x2048x2048_2_2_1_1_0_0_wf : DotDims.WF S4x2048x128 S4x2048x128 S4x2048x2048 [2] [2] [1] [1] [0] [0]

variable [Facts₀]

def dot_S4x2048x128_S4x2048x128_S4x2048x2048_2_2_1_1_0_0 : DotDims S4x2048x128 S4x2048x128 S4x2048x2048 where
  lhsContracting := [2]
  rhsContracting := [2]
  lhsNonContracting := [1]
  rhsNonContracting := [1]
  lhsBatch := [0]
  rhsBatch := [0]
  wf := dot_S4x2048x128_S4x2048x128_S4x2048x2048_2_2_1_1_0_0_wf

class Facts : Prop extends Facts₀ where

variable [Facts]
-- ==== Proof.Spec.lean ====
/-
  The function both programs compute, over the extended reals.

  For two arrays x0, x1 of shape [4, 2048, 128] (batch, row, feature) and a batch b:
    sq x b n      = sum over the features k of x(b,n,k)^2                      (a row's squared norm)
    gram x b n j  = sum over the features k of x(b,n,k) * x(b,j,k)             (the Gram matrix of the rows)
    d2 x b n j    = max ((sq x b n + sq x b j) - 2 * gram x b n j) 0           (squared distance of rows n and j, clamped)
    dist x b n j  = sqrt (d2 x b n j)
  The loss is the mean over (b, n, j) of (dist x0 - dist x1)^2 plus the mean of (sigmoid (gram x0) - sigmoid (gram x1))^2,
  each mean written as the total sum divided by 4 * 2048 * 2048 = 2^24.

  Also here: the sums' rearrangements, valid in any commutative monoid — an index set of rank 3 summed by its three
  coordinates, and the 2048 rows summed as 8 tiles of 256 consecutive rows.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx
open scoped BigOperators

/-- An input array: [4, 2048, 128] extended reals. -/
abbrev Arr : Type := (⟨3, ![4, 2048, 128]⟩ : Shape).Idx → EReal

/-- Row n's squared norm in batch b. -/
def sq (x : Arr) (b : Fin 4) (n : Fin 2048) : EReal := ∑ k : Fin 128, x (ix3 b n k) * x (ix3 b n k)

/-- The inner product of rows n and j of batch b. -/
def gram (x : Arr) (b : Fin 4) (n j : Fin 2048) : EReal := ∑ k : Fin 128, x (ix3 b n k) * x (ix3 b j k)

/-- The clamped squared distance of rows n and j: |a|^2 + |b|^2 - 2<a,b>, never below zero. -/
def d2 (x : Arr) (b : Fin 4) (n j : Fin 2048) : EReal :=
  max ((sq x b n + sq x b j) - Ideal.ofBits .f32 0x40000000#32 * gram x b n j) (Ideal.ofBits .f32 0x00000000#32)

/-- The distance of rows n and j. -/
def dist (x : Arr) (b : Fin 4) (n j : Fin 2048) : EReal := Ideal.sqrt (d2 x b n j)

/-- One term of the distance-structure loss. -/
def relT (x0 x1 : Arr) (b : Fin 4) (n j : Fin 2048) : EReal :=
  (dist x0 b n j - dist x1 b n j) * (dist x0 b n j - dist x1 b n j)

/-- One term of the sigmoid-structure loss. -/
def topoT (x0 x1 : Arr) (b : Fin 4) (n j : Fin 2048) : EReal :=
  (Ideal.logistic (gram x0 b n j) - Ideal.logistic (gram x1 b n j))
    * (Ideal.logistic (gram x0 b n j) - Ideal.logistic (gram x1 b n j))

/-- The loss: two means over (b, n, j), each a total sum divided by 2^24. -/
def loss (x0 x1 : Arr) : EReal :=
  Ideal.div (∑ b : Fin 4, ∑ n : Fin 2048, ∑ j : Fin 2048, relT x0 x1 b n j) (Ideal.ofBits .f32 0x4B800000#32)
    + Ideal.div (∑ b : Fin 4, ∑ n : Fin 2048, ∑ j : Fin 2048, topoT x0 x1 b n j) (Ideal.ofBits .f32 0x4B800000#32)

/-! ## Sums rearranged -/

/-- A rank-3 index is its three coordinates. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- So a sum over a rank-3 index set is the iterated sum over its coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- Row r of tile k: row 256 k + r of the 2048. -/
def rowOf (k : Fin 8) (r : Fin 256) : Fin 2048 := ⟨256 * k.val + r.val, by have := k.isLt; have := r.isLt; omega⟩

/-- The 2048 rows are 8 tiles of 256 consecutive rows. -/
theorem sum_tiles {M : Type*} [AddCommMonoid M] (g : Fin 2048 → M) :
    ∑ k : Fin 8, ∑ r : Fin 256, g (rowOf k r) = ∑ n : Fin 2048, g n := by
  have e := Equiv.sum_comp (finProdFinEquiv (m := 8) (n := 256)) (fun n : Fin (8 * 256) => g n)
  rw [Fintype.sum_prod_type] at e
  refine Eq.trans ?_ e
  refine Finset.sum_congr rfl fun k _ => Finset.sum_congr rfl fun r _ => congrArg g (Fin.ext ?_)
  show 256 * k.val + r.val = r.val + 256 * k.val
  omega

/-- A tile by a natural number: tile k's value when k < 8, nothing otherwise (so that a running sum over the first
    tiles is a sum over a range). -/
def tileN {M : Type*} [AddCommMonoid M] (T : Fin 8 → M) (k : ℕ) : M := if h : k < 8 then T ⟨k, h⟩ else 0

theorem tileN_of_lt {M : Type*} [AddCommMonoid M] (T : Fin 8 → M) (k : ℕ) (h : k < 8) : tileN T k = T ⟨k, h⟩ := dif_pos h

/-- All eight tiles by range are all eight tiles. -/
theorem sum_range_tileN {M : Type*} [AddCommMonoid M] (T : Fin 8 → M) :
    ∑ k ∈ Finset.range 8, tileN T k = ∑ k : Fin 8, T k := by
  rw [Finset.sum_range]
  exact Finset.sum_congr rfl fun k _ => tileN_of_lt T k.val k.isLt

end Cert.Spec

end
-- ==== Proof.RefSide.lean ====
/-
  The reference program computes the loss of Spec: read one operation at a time, each of its two [4, 2048, 2048]
  distance arrays is, at (b, n, j), the square root of the clamped squared distance of rows n and j; each sigmoid array
  the sigmoid of the rows' inner product; and its result the two total sums over (b, n, j), each divided by 2^24, added.
-/
import proofs.«175647_j2980707303718_2_alg».proof.Proof.Gen.ReferenceIdeal.Run
import proofs.«175647_j2980707303718_2_alg».proof.Proof.Gen.ReferenceIdeal.Read
import proofs.«175647_j2980707303718_2_alg».proof.Proof.Spec
import Idealize.ShloMosaic.Lib.IdealHost

noncomputable section

namespace Cert.RefSide

open Cert.ReferenceIdeal Cert.ReferenceIdeal.Read Idealize.ShloMosaic Idealize.ShloMosaic.ValueIdx Cert.Spec
open scoped BigOperators

/-- Selecting the root only where the clamped value is positive (and 0 elsewhere), of a value replaced by 1 where it
    is not positive, is the root of the clamped value: where max e 0 is not positive it is 0, whose root is 0. -/
theorem safe_sqrt (e : EReal) :
    Scalar.select (Ideal.cmp .ogt (max e 0) 0)
      (Ideal.sqrt (Scalar.select (Ideal.cmp .ogt (max e 0) 0) (max e 0) 1)) 0 = Ideal.sqrt (max e 0) := by
  by_cases h : (0 : EReal) < max e 0
  · have hc : Ideal.cmp .ogt (max e 0) 0 = 1#1 := by simp [Ideal.cmp, h]
    rw [hc, select_one, select_one]
  · have hc : Ideal.cmp .ogt (max e 0) 0 = 0#1 := by simp [Ideal.cmp, h]
    have hd : max e 0 = 0 := le_antisymm (not_lt.mp h) (le_max_right _ _)
    rw [hc, select_zero, hd, ← EReal.coe_zero, Ideal.sqrt_coe]
    simp

theorem i_v1 (b : Fin 4) (n : Fin 2048) (k : Fin 128) : idx_main_v1 (ix2 b n) k = ix3 b n k := by funext a; match a with | ⟨0, _⟩ => rfl | ⟨1, _⟩ => rfl | ⟨2, _⟩ => rfl
theorem i_v3 (b : Fin 4) (n : Fin 2048) (u : Fin 1) : idx_main_v3 (ix3 b n u) = ix2 b n := by funext a; match a with | ⟨0, _⟩ => rfl | ⟨1, _⟩ => rfl
theorem i_v4 (b : Fin 4) (u : Fin 1) (j : Fin 2048) : idx_main_v4 (ix3 b u j) = ix2 b j := by funext a; match a with | ⟨0, _⟩ => rfl | ⟨1, _⟩ => rfl
theorem i_v5 (b : Fin 4) (n j : Fin 2048) : idx_main_v5 (ix3 b n j) = ix3 b n (0 : Fin 1) := by funext a; match a with | ⟨0, _⟩ => rfl | ⟨1, _⟩ => rfl | ⟨2, _⟩ => rfl
theorem i_v6 (b : Fin 4) (n j : Fin 2048) : idx_main_v6 (ix3 b n j) = ix3 b (0 : Fin 1) j := by funext a; match a with | ⟨0, _⟩ => rfl | ⟨1, _⟩ => rfl | ⟨2, _⟩ => rfl
theorem l_v2 (b : Fin 4) (n j : Fin 2048) (k : Fin 128) : lidx_main_v2 (ix3 b n j) k = ix3 b n k := by funext a; match a with | ⟨0, _⟩ => rfl | ⟨1, _⟩ => rfl | ⟨2, _⟩ => rfl
theorem r_v2 (b : Fin 4) (n j : Fin 2048) (k : Fin 128) : ridx_main_v2 (ix3 b n j) k = ix3 b j k := by funext a; match a with | ⟨0, _⟩ => rfl | ⟨1, _⟩ => rfl | ⟨2, _⟩ => rfl
theorem l_v40 (b : Fin 4) (n j : Fin 2048) (k : Fin 128) : lidx_main_v40 (ix3 b n j) k = ix3 b n k := by funext a; match a with | ⟨0, _⟩ => rfl | ⟨1, _⟩ => rfl | ⟨2, _⟩ => rfl
theorem r_v40 (b : Fin 4) (n j : Fin 2048) (k : Fin 128) : ridx_main_v40 (ix3 b n j) k = ix3 b j k := by funext a; match a with | ⟨0, _⟩ => rfl | ⟨1, _⟩ => rfl | ⟨2, _⟩ => rfl

/-- The reference's clamped squared distance of rows n and j, x0. -/
theorem d2_x0 (x : Arr) (b : Fin 4) (n j : Fin 2048) : val_main_v12 (F := Ideal) x (ix3 b n j) = Spec.d2 x b n j := by
  simp only [val_main_v12_apply, val_main_v10_apply, val_main_v7_apply, val_main_v5_apply, val_main_v3_apply, val_main_v6_apply, val_main_v4_apply, val_main_v1_apply, val_main_v0_apply, val_main_cst_apply, val_main_v9_apply, val_main_v8_apply, val_main_cst_0_apply, val_main_v2_apply, val_main_v11_apply, val_main_cst_1_apply, i_v1, i_v3, i_v4, i_v5, i_v6, l_v2, r_v2,
    Ideal.ofBits_def, Ideal.addf_def, Ideal.subf_def, Ideal.mulf_def, Ideal.maximumf_def, Ideal.ofBits_zero_f32, zero_add, Spec.d2, Spec.sq, Spec.gram]

/-- The reference's guarded square root is the square root: the clamped value is never negative, and the root of 0 is 0. -/
theorem dist_x0 (x : Arr) (b : Fin 4) (n j : Fin 2048) : val_main_v19 (F := Ideal) x (ix3 b n j) = Spec.dist x b n j := by
  simp only [val_main_v19_apply, val_main_v17_apply, val_main_v16_apply, val_main_cst_4_apply, val_main_v18_apply, val_main_v15_apply, val_main_v14_apply, val_main_v13_apply, val_main_cst_2_apply, val_main_call0_v1_apply, val_main_call0_v0_apply, val_main_cst_3_apply, val_main_call1_v1_apply, val_main_call1_v0_apply, val_main_cst_5_apply, d2_x0, Ideal.cmpf_def, Ideal.hostUnary_sqrt_def, Ideal.ofBits_def, Spec.dist]
  have h := safe_sqrt ((Spec.sq x b n + Spec.sq x b j) - Ideal.ofBits .f32 0x40000000#32 * Spec.gram x b n j)
  simp only [Spec.d2, Ideal.ofBits_zero_f32, Ideal.ofBits_one_f32] at h ⊢
  exact h

/-- The reference's 1 / (1 + exp (-g)) is the sigmoid of the Gram entry, x0. -/
theorem sig_x0 (x : Arr) (b : Fin 4) (n j : Fin 2048) : val_main_v46 (F := Ideal) x (ix3 b n j) = Ideal.logistic (Spec.gram x b n j) := by
  simp only [val_main_v46_apply, val_main_v45_apply, val_main_cst_14_apply, val_main_v44_apply, val_main_v43_apply, val_main_cst_13_apply, val_main_v42_apply, val_main_v41_apply, val_main_v40_apply, l_v40, r_v40, Ideal.ofBits_def, Ideal.addf_def, Ideal.hostDivf_def,
    Ideal.hostUnary_exp_def, Ideal.hostNegf_def, Ideal.negf_def, Ideal.ofBits_one_f32, Ideal.logistic, Spec.gram]

theorem i_v21 (b : Fin 4) (n : Fin 2048) (k : Fin 128) : idx_main_v21 (ix2 b n) k = ix3 b n k := by funext a; match a with | ⟨0, _⟩ => rfl | ⟨1, _⟩ => rfl | ⟨2, _⟩ => rfl
theorem i_v23 (b : Fin 4) (n : Fin 2048) (u : Fin 1) : idx_main_v23 (ix3 b n u) = ix2 b n := by funext a; match a with | ⟨0, _⟩ => rfl | ⟨1, _⟩ => rfl
theorem i_v24 (b : Fin 4) (u : Fin 1) (j : Fin 2048) : idx_main_v24 (ix3 b u j) = ix2 b j := by funext a; match a with | ⟨0, _⟩ => rfl | ⟨1, _⟩ => rfl
theorem i_v25 (b : Fin 4) (n j : Fin 2048) : idx_main_v25 (ix3 b n j) = ix3 b n (0 : Fin 1) := by funext a; match a with | ⟨0, _⟩ => rfl | ⟨1, _⟩ => rfl | ⟨2, _⟩ => rfl
theorem i_v26 (b : Fin 4) (n j : Fin 2048) : idx_main_v26 (ix3 b n j) = ix3 b (0 : Fin 1) j := by funext a; match a with | ⟨0, _⟩ => rfl | ⟨1, _⟩ => rfl | ⟨2, _⟩ => rfl
theorem l_v22 (b : Fin 4) (n j : Fin 2048) (k : Fin 128) : lidx_main_v22 (ix3 b n j) k = ix3 b n k := by funext a; match a with | ⟨0, _⟩ => rfl | ⟨1, _⟩ => rfl | ⟨2, _⟩ => rfl
theorem r_v22 (b : Fin 4) (n j : Fin 2048) (k : Fin 128) : ridx_main_v22 (ix3 b n j) k = ix3 b j k := by funext a; match a with | ⟨0, _⟩ => rfl | ⟨1, _⟩ => rfl | ⟨2, _⟩ => rfl
theorem l_v47 (b : Fin 4) (n j : Fin 2048) (k : Fin 128) : lidx_main_v47 (ix3 b n j) k = ix3 b n k := by funext a; match a with | ⟨0, _⟩ => rfl | ⟨1, _⟩ => rfl | ⟨2, _⟩ => rfl
theorem r_v47 (b : Fin 4) (n j : Fin 2048) (k : Fin 128) : ridx_main_v47 (ix3 b n j) k = ix3 b j k := by funext a; match a with | ⟨0, _⟩ => rfl | ⟨1, _⟩ => rfl | ⟨2, _⟩ => rfl

/-- The reference's clamped squared distance of rows n and j, x1. -/
theorem d2_x1 (x : Arr) (b : Fin 4) (n j : Fin 2048) : val_main_v32 (F := Ideal) x (ix3 b n j) = Spec.d2 x b n j := by
  simp only [val_main_v32_apply, val_main_v30_apply, val_main_v27_apply, val_main_v25_apply, val_main_v23_apply, val_main_v26_apply, val_main_v24_apply, val_main_v21_apply, val_main_v20_apply, val_main_cst_6_apply, val_main_v29_apply, val_main_v28_apply, val_main_cst_7_apply, val_main_v22_apply, val_main_v31_apply, val_main_cst_8_apply, i_v21, i_v23, i_v24, i_v25, i_v26, l_v22, r_v22,
    Ideal.ofBits_def, Ideal.addf_def, Ideal.subf_def, Ideal.mulf_def, Ideal.maximumf_def, Ideal.ofBits_zero_f32, zero_add, Spec.d2, Spec.sq, Spec.gram]

/-- The reference's guarded square root is the square root: the clamped value is never negative, and the root of 0 is 0. -/
theorem dist_x1 (x : Arr) (b : Fin 4) (n j : Fin 2048) : val_main_v39 (F := Ideal) x (ix3 b n j) = Spec.dist x b n j := by
  simp only [val_main_v39_apply, val_main_v37_apply, val_main_v36_apply, val_main_cst_11_apply, val_main_v38_apply, val_main_v35_apply, val_main_v34_apply, val_main_v33_apply, val_main_cst_9_apply, val_main_call2_v1_apply, val_main_call2_v0_apply, val_main_cst_10_apply, val_main_call3_v1_apply, val_main_call3_v0_apply, val_main_cst_12_apply, d2_x1, Ideal.cmpf_def, Ideal.hostUnary_sqrt_def, Ideal.ofBits_def, Spec.dist]
  have h := safe_sqrt ((Spec.sq x b n + Spec.sq x b j) - Ideal.ofBits .f32 0x40000000#32 * Spec.gram x b n j)
  simp only [Spec.d2, Ideal.ofBits_zero_f32, Ideal.ofBits_one_f32] at h ⊢
  exact h

/-- The reference's 1 / (1 + exp (-g)) is the sigmoid of the Gram entry, x1. -/
theorem sig_x1 (x : Arr) (b : Fin 4) (n j : Fin 2048) : val_main_v53 (F := Ideal) x (ix3 b n j) = Ideal.logistic (Spec.gram x b n j) := by
  simp only [val_main_v53_apply, val_main_v52_apply, val_main_cst_16_apply, val_main_v51_apply, val_main_v50_apply, val_main_cst_15_apply, val_main_v49_apply, val_main_v48_apply, val_main_v47_apply, l_v47, r_v47, Ideal.ofBits_def, Ideal.addf_def, Ideal.hostDivf_def,
    Ideal.hostUnary_exp_def, Ideal.hostNegf_def, Ideal.negf_def, Ideal.ofBits_one_f32, Ideal.logistic, Spec.gram]

/-- The reference's result is the loss. -/
theorem ref_eq (x0 x1 : Arr) (i : S_.Idx) : val_main_v62 (F := Ideal) x0 x1 i = Spec.loss x0 x1 := by
  rw [val_main_v62_apply, val_main_v57_apply, val_main_v61_apply, val_main_v56_apply, val_main_v60_apply, sum_idx3, sum_idx3]
  simp only [val_main_v55_apply, val_main_v54_apply, val_main_v59_apply, val_main_v58_apply, dist_x0, dist_x1, sig_x0, sig_x1,
    val_main_cst_17_apply, val_main_cst_18_apply, val_main_cst_19_apply, val_main_cst_20_apply,
    Ideal.ofBits_def, Ideal.addf_def, Ideal.subf_def, Ideal.mulf_def, Ideal.hostDivf_def, Ideal.ofBits_zero_f32, zero_add,
    Spec.loss, Spec.relT, Spec.topoT]

end Cert.RefSide

end
-- ==== Proof.Pieces.lean ====
import proofs.«175647_j2980707303718_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

/-! What one grid point does, read off the body's stores.

At a grid point (b, k) the body sees the batch's two [1, 2048, 128] blocks x0, x1, the two running [1, 1, 2048]
accumulators, and four scratch arrays: the rows' squared norms of x0 and of x1 (each [1, 2048]) and the two blocks again
as [2048, 128] arrays. It adds, to each accumulator, the contribution of tile k's 256 rows. At the first point of a
batch it first zeroes the accumulators and fills the four scratch arrays from the blocks; at the other points it reads
what the point before left. -/

theorem hz2 : (![0, 0] : Fin 2 → Nat) = fun _ => 0 := funext fun a => by fin_cases a <;> rfl
theorem hz3 : (![0, 0, 0] : Fin 3 → Nat) = fun _ => 0 := funext fun a => by fin_cases a <;> rfl

/-- The tile's 256 rows inside a [1, 2048, 128] block. -/
abbrev rows3 (i : grid0.Coords) : Rect S1x2048x128 := Rect.unit (k0_off1 i) S1x256x128.size (k0_off1_inb i)
/-- The tile's 256 rows inside a [2048, 128] array. -/
abbrev rows2 (i : grid0.Coords) : Rect S2048x128 := Rect.unit (k0_off2 i) S256x128.size (k0_off2_inb i)

/-- The distance accumulator after the point: the accumulator before it plus the tile's column sums of squared
    distance differences, from the blocks, the norms s0, s1 and the [2048, 128] copies s2, s3. -/
def relStep (i : grid0.Coords) (x0 x1 : Vec F S1x2048x128 .f32) (o2 : Vec F S1x1x2048 .f32)
    (s0 s1 : Vec F S1x2048 .f32) (s2 s3 : Vec F S2048x128 .bf16) : Vec F S1x1x2048 .f32 :=
  k0_pay1 (k0_pay12 (View.ld x1 (rows3 i))) (k0_pay14 (View.ld s3 (rows2 i)) s3)
    (k0_pay15 (View.ld x0 (rows3 i)) (View.ld s2 (rows2 i)) s2 s0) s1 o2

/-- The sigmoid accumulator after the point, likewise. -/
def topoStep (i : grid0.Coords) (o3 : Vec F S1x1x2048 .f32) (s2 s3 : Vec F S2048x128 .bf16) : Vec F S1x1x2048 .f32 :=
  k0_pay2 (k0_pay13 (View.ld s2 (rows2 i)) s2) (k0_pay14 (View.ld s3 (rows2 i)) s3) o3

/-! ## A point that is not a batch's first -/

theorem out_B_2 (c : Dev nD) (i : grid0.Coords) (a2 : Memref sig .tc .vmem S1x2048x128 .f32) (h2 : a2.IsWhole) (a3 : Memref sig .tc .vmem S1x2048x128 .f32) (h3 : a3.IsWhole) (a4 : Memref sig .tc .vmem S1x1x2048 .f32) (h4 : a4.IsWhole) (a5 : Memref sig .tc .vmem S1x1x2048 .f32) (h5 : a5.IsWhole) (a6 : Memref sig .tc .vmem S1x2048 .f32) (h6 : a6.IsWhole) (a7 : Memref sig .tc .vmem S1x2048 .f32) (h7 : a7.IsWhole) (a8 : Memref sig .tc .vmem S2048x128 .bf16) (h8 : a8.IsWhole) (a9 : Memref sig .tc .vmem S2048x128 .bf16) (h9 : a9.IsWhole) (hc : ¬cond0_0 i) (x0 x1 : Vec F S1x2048x128 .f32) (xo2 xo3 : Vec F S1x1x2048 .f32) (xs0 xs1 : Vec F S1x2048 .f32) (xs2 xs3 : Vec F S2048x128 .bf16) :
    out0_B_2 c i a2 h2 a3 h3 a4 h4 a5 h5 a6 h6 a7 h7 a8 h8 a9 h9 hc x0 x1 xo2 xo3 xs0 xs1 xs2 xs3 = relStep i x0 x1 xo2 xs0 xs1 xs2 xs3 := by
  unfold out0_B_2
  rw [View.read_writes_eq_canon _ _ _ (cover0_B_2 c i a2 h2 a3 h3 a4 h4 a5 h5 a6 h6 a7 h7 a8 h8 a9 h9 hc x0 x1 xo2 xo3 xs0 xs1 xs2 xs3)]
  unfold kernelRun0_B
  dsimp only
  sl_unfold_words
  rw [View.canon_unit_zero (S := S1x1x2048) hz3]
  simp only [View.readAt_eq_ld, View.read_writes_junk_eq_canon, h2.read_unread, h3.read_unread, h4.read_unread, h5.read_unread, h6.read_unread, h7.read_unread, h8.read_unread, h9.read_unread, View.ld_unit_zero (S := S1x2048x128) hz3, View.ld_unit_zero (S := S1x1x2048) hz3, View.ld_unit_zero (S := S1x2048) hz2, View.ld_unit_zero (S := S2048x128) hz2, View.readCov_unit_zero (S := S1x2048) _ hz2, View.readCov_unit_zero (S := S2048x128) _ hz2, View.readCov_unit_zero (S := S1x1x2048) _ hz3, View.canon_unit_zero (S := S1x2048) hz2, View.canon_unit_zero (S := S2048x128) hz2, View.canon_unit_zero (S := S1x1x2048) hz3]
  rfl

theorem out_B_3 (c : Dev nD) (i : grid0.Coords) (a2 : Memref sig .tc .vmem S1x2048x128 .f32) (h2 : a2.IsWhole) (a3 : Memref sig .tc .vmem S1x2048x128 .f32) (h3 : a3.IsWhole) (a4 : Memref sig .tc .vmem S1x1x2048 .f32) (h4 : a4.IsWhole) (a5 : Memref sig .tc .vmem S1x1x2048 .f32) (h5 : a5.IsWhole) (a6 : Memref sig .tc .vmem S1x2048 .f32) (h6 : a6.IsWhole) (a7 : Memref sig .tc .vmem S1x2048 .f32) (h7 : a7.IsWhole) (a8 : Memref sig .tc .vmem S2048x128 .bf16) (h8 : a8.IsWhole) (a9 : Memref sig .tc .vmem S2048x128 .bf16) (h9 : a9.IsWhole) (hc : ¬cond0_0 i) (x0 x1 : Vec F S1x2048x128 .f32) (xo2 xo3 : Vec F S1x1x2048 .f32) (xs0 xs1 : Vec F S1x2048 .f32) (xs2 xs3 : Vec F S2048x128 .bf16) :
    out0_B_3 c i a2 h2 a3 h3 a4 h4 a5 h5 a6 h6 a7 h7 a8 h8 a9 h9 hc x0 x1 xo2 xo3 xs0 xs1 xs2 xs3 = topoStep i xo3 xs2 xs3 := by
  unfold out0_B_3
  rw [View.read_writes_eq_canon _ _ _ (cover0_B_3 c i a2 h2 a3 h3 a4 h4 a5 h5 a6 h6 a7 h7 a8 h8 a9 h9 hc x0 x1 xo2 xo3 xs0 xs1 xs2 xs3)]
  unfold kernelRun0_B
  dsimp only
  sl_unfold_words
  rw [View.canon_unit_zero (S := S1x1x2048) hz3]
  simp only [View.readAt_eq_ld, View.read_writes_junk_eq_canon, h2.read_unread, h3.read_unread, h4.read_unread, h5.read_unread, h6.read_unread, h7.read_unread, h8.read_unread, h9.read_unread, View.ld_unit_zero (S := S1x2048x128) hz3, View.ld_unit_zero (S := S1x1x2048) hz3, View.ld_unit_zero (S := S1x2048) hz2, View.ld_unit_zero (S := S2048x128) hz2, View.readCov_unit_zero (S := S1x2048) _ hz2, View.readCov_unit_zero (S := S2048x128) _ hz2, View.readCov_unit_zero (S := S1x1x2048) _ hz3, View.canon_unit_zero (S := S1x2048) hz2, View.canon_unit_zero (S := S2048x128) hz2, View.canon_unit_zero (S := S1x1x2048) hz3]
  rfl

/-! ## A batch's first point -/

theorem sout_A_0 (c : Dev nD) (i : grid0.Coords) (a2 : Memref sig .tc .vmem S1x2048x128 .f32) (h2 : a2.IsWhole) (a3 : Memref sig .tc .vmem S1x2048x128 .f32) (h3 : a3.IsWhole) (a4 : Memref sig .tc .vmem S1x1x2048 .f32) (h4 : a4.IsWhole) (a5 : Memref sig .tc .vmem S1x1x2048 .f32) (h5 : a5.IsWhole) (a6 : Memref sig .tc .vmem S1x2048 .f32) (h6 : a6.IsWhole) (a7 : Memref sig .tc .vmem S1x2048 .f32) (h7 : a7.IsWhole) (a8 : Memref sig .tc .vmem S2048x128 .bf16) (h8 : a8.IsWhole) (a9 : Memref sig .tc .vmem S2048x128 .bf16) (h9 : a9.IsWhole) (hc : cond0_0 i) (x0 x1 : Vec F S1x2048x128 .f32) :
    sout0_A_0 c i a2 h2 a3 h3 a4 h4 a5 h5 a6 h6 a7 h7 a8 h8 a9 h9 hc x0 x1 = k0_pay7 x0 := by
  unfold sout0_A_0
  rw [View.read_writes_eq_canon _ _ _ (scover0_A_0 c i a2 h2 a3 h3 a4 h4 a5 h5 a6 h6 a7 h7 a8 h8 a9 h9 hc x0 x1)]
  unfold kernelRun0_A
  dsimp only
  sl_unfold_words
  rw [View.canon_unit_zero hz2]
  simp only [View.readAt_eq_ld, View.read_writes_junk_eq_canon, h2.read_unread, h3.read_unread, h4.read_unread, h5.read_unread, h6.read_unread, h7.read_unread, h8.read_unread, h9.read_unread, View.ld_unit_zero (S := S1x2048x128) hz3, View.ld_unit_zero (S := S1x1x2048) hz3, View.ld_unit_zero (S := S1x2048) hz2, View.ld_unit_zero (S := S2048x128) hz2, View.readCov_unit_zero (S := S1x2048) _ hz2, View.readCov_unit_zero (S := S2048x128) _ hz2, View.readCov_unit_zero (S := S1x1x2048) _ hz3, View.canon_unit_zero (S := S1x2048) hz2, View.canon_unit_zero (S := S2048x128) hz2, View.canon_unit_zero (S := S1x1x2048) hz3]

theorem sout_A_1 (c : Dev nD) (i : grid0.Coords) (a2 : Memref sig .tc .vmem S1x2048x128 .f32) (h2 : a2.IsWhole) (a3 : Memref sig .tc .vmem S1x2048x128 .f32) (h3 : a3.IsWhole) (a4 : Memref sig .tc .vmem S1x1x2048 .f32) (h4 : a4.IsWhole) (a5 : Memref sig .tc .vmem S1x1x2048 .f32) (h5 : a5.IsWhole) (a6 : Memref sig .tc .vmem S1x2048 .f32) (h6 : a6.IsWhole) (a7 : Memref sig .tc .vmem S1x2048 .f32) (h7 : a7.IsWhole) (a8 : Memref sig .tc .vmem S2048x128 .bf16) (h8 : a8.IsWhole) (a9 : Memref sig .tc .vmem S2048x128 .bf16) (h9 : a9.IsWhole) (hc : cond0_0 i) (x0 x1 : Vec F S1x2048x128 .f32) :
    sout0_A_1 c i a2 h2 a3 h3 a4 h4 a5 h5 a6 h6 a7 h7 a8 h8 a9 h9 hc x0 x1 = k0_pay8 x1 := by
  unfold sout0_A_1
  rw [View.read_writes_eq_canon _ _ _ (scover0_A_1 c i a2 h2 a3 h3 a4 h4 a5 h5 a6 h6 a7 h7 a8 h8 a9 h9 hc x0 x1)]
  unfold kernelRun0_A
  dsimp only
  sl_unfold_words
  rw [View.canon_unit_zero hz2]
  simp only [View.readAt_eq_ld, View.read_writes_junk_eq_canon, h2.read_unread, h3.read_unread, h4.read_unread, h5.read_unread, h6.read_unread, h7.read_unread, h8.read_unread, h9.read_unread, View.ld_unit_zero (S := S1x2048x128) hz3, View.ld_unit_zero (S := S1x1x2048) hz3, View.ld_unit_zero (S := S1x2048) hz2, View.ld_unit_zero (S := S2048x128) hz2, View.readCov_unit_zero (S := S1x2048) _ hz2, View.readCov_unit_zero (S := S2048x128) _ hz2, View.readCov_unit_zero (S := S1x1x2048) _ hz3, View.canon_unit_zero (S := S1x2048) hz2, View.canon_unit_zero (S := S2048x128) hz2, View.canon_unit_zero (S := S1x1x2048) hz3]

theorem sout_A_2 (c : Dev nD) (i : grid0.Coords) (a2 : Memref sig .tc .vmem S1x2048x128 .f32) (h2 : a2.IsWhole) (a3 : Memref sig .tc .vmem S1x2048x128 .f32) (h3 : a3.IsWhole) (a4 : Memref sig .tc .vmem S1x1x2048 .f32) (h4 : a4.IsWhole) (a5 : Memref sig .tc .vmem S1x1x2048 .f32) (h5 : a5.IsWhole) (a6 : Memref sig .tc .vmem S1x2048 .f32) (h6 : a6.IsWhole) (a7 : Memref sig .tc .vmem S1x2048 .f32) (h7 : a7.IsWhole) (a8 : Memref sig .tc .vmem S2048x128 .bf16) (h8 : a8.IsWhole) (a9 : Memref sig .tc .vmem S2048x128 .bf16) (h9 : a9.IsWhole) (hc : cond0_0 i) (x0 x1 : Vec F S1x2048x128 .f32) :
    sout0_A_2 c i a2 h2 a3 h3 a4 h4 a5 h5 a6 h6 a7 h7 a8 h8 a9 h9 hc x0 x1 = k0_pay9 x0 := by
  unfold sout0_A_2
  rw [View.read_writes_eq_canon _ _ _ (scover0_A_2 c i a2 h2 a3 h3 a4 h4 a5 h5 a6 h6 a7 h7 a8 h8 a9 h9 hc x0 x1)]
  unfold kernelRun0_A
  dsimp only
  sl_unfold_words
  rw [View.canon_unit_zero hz2]
  simp only [View.readAt_eq_ld, View.read_writes_junk_eq_canon, h2.read_unread, h3.read_unread, h4.read_unread, h5.read_unread, h6.read_unread, h7.read_unread, h8.read_unread, h9.read_unread, View.ld_unit_zero (S := S1x2048x128) hz3, View.ld_unit_zero (S := S1x1x2048) hz3, View.ld_unit_zero (S := S1x2048) hz2, View.ld_unit_zero (S := S2048x128) hz2, View.readCov_unit_zero (S := S1x2048) _ hz2, View.readCov_unit_zero (S := S2048x128) _ hz2, View.readCov_unit_zero (S := S1x1x2048) _ hz3, View.canon_unit_zero (S := S1x2048) hz2, View.canon_unit_zero (S := S2048x128) hz2, View.canon_unit_zero (S := S1x1x2048) hz3]

theorem sout_A_3 (c : Dev nD) (i : grid0.Coords) (a2 : Memref sig .tc .vmem S1x2048x128 .f32) (h2 : a2.IsWhole) (a3 : Memref sig .tc .vmem S1x2048x128 .f32) (h3 : a3.IsWhole) (a4 : Memref sig .tc .vmem S1x1x2048 .f32) (h4 : a4.IsWhole) (a5 : Memref sig .tc .vmem S1x1x2048 .f32) (h5 : a5.IsWhole) (a6 : Memref sig .tc .vmem S1x2048 .f32) (h6 : a6.IsWhole) (a7 : Memref sig .tc .vmem S1x2048 .f32) (h7 : a7.IsWhole) (a8 : Memref sig .tc .vmem S2048x128 .bf16) (h8 : a8.IsWhole) (a9 : Memref sig .tc .vmem S2048x128 .bf16) (h9 : a9.IsWhole) (hc : cond0_0 i) (x0 x1 : Vec F S1x2048x128 .f32) :
    sout0_A_3 c i a2 h2 a3 h3 a4 h4 a5 h5 a6 h6 a7 h7 a8 h8 a9 h9 hc x0 x1 = k0_pay11 (k0_pay10 x1) := by
  unfold sout0_A_3
  rw [View.read_writes_eq_canon _ _ _ (scover0_A_3 c i a2 h2 a3 h3 a4 h4 a5 h5 a6 h6 a7 h7 a8 h8 a9 h9 hc x0 x1)]
  unfold kernelRun0_A
  dsimp only
  sl_unfold_words
  rw [View.canon_unit_zero hz2]
  simp only [View.readAt_eq_ld, View.read_writes_junk_eq_canon, h2.read_unread, h3.read_unread, h4.read_unread, h5.read_unread, h6.read_unread, h7.read_unread, h8.read_unread, h9.read_unread, View.ld_unit_zero (S := S1x2048x128) hz3, View.ld_unit_zero (S := S1x1x2048) hz3, View.ld_unit_zero (S := S1x2048) hz2, View.ld_unit_zero (S := S2048x128) hz2, View.readCov_unit_zero (S := S1x2048) _ hz2, View.readCov_unit_zero (S := S2048x128) _ hz2, View.readCov_unit_zero (S := S1x1x2048) _ hz3, View.canon_unit_zero (S := S1x2048) hz2, View.canon_unit_zero (S := S2048x128) hz2, View.canon_unit_zero (S := S1x1x2048) hz3]

theorem out_A_2 (c : Dev nD) (i : grid0.Coords) (a2 : Memref sig .tc .vmem S1x2048x128 .f32) (h2 : a2.IsWhole) (a3 : Memref sig .tc .vmem S1x2048x128 .f32) (h3 : a3.IsWhole) (a4 : Memref sig .tc .vmem S1x1x2048 .f32) (h4 : a4.IsWhole) (a5 : Memref sig .tc .vmem S1x1x2048 .f32) (h5 : a5.IsWhole) (a6 : Memref sig .tc .vmem S1x2048 .f32) (h6 : a6.IsWhole) (a7 : Memref sig .tc .vmem S1x2048 .f32) (h7 : a7.IsWhole) (a8 : Memref sig .tc .vmem S2048x128 .bf16) (h8 : a8.IsWhole) (a9 : Memref sig .tc .vmem S2048x128 .bf16) (h9 : a9.IsWhole) (hc : cond0_0 i) (x0 x1 : Vec F S1x2048x128 .f32) :
    out0_A_2 c i a2 h2 a3 h3 a4 h4 a5 h5 a6 h6 a7 h7 a8 h8 a9 h9 hc x0 x1
      = relStep i x0 x1 k0_pay3 (k0_pay7 x0) (k0_pay8 x1) (k0_pay9 x0) (k0_pay11 (k0_pay10 x1)) := by
  unfold out0_A_2
  rw [View.read_writes_eq_canon _ _ _ (cover0_A_2 c i a2 h2 a3 h3 a4 h4 a5 h5 a6 h6 a7 h7 a8 h8 a9 h9 hc x0 x1)]
  unfold kernelRun0_A
  dsimp only
  sl_unfold_words
  rw [View.canon_cons_unit_zero (S := S1x1x2048) hz3]
  simp only [View.readAt_eq_ld, View.read_writes_junk_eq_canon, h2.read_unread, h3.read_unread, h4.read_unread, h5.read_unread, h6.read_unread, h7.read_unread, h8.read_unread, h9.read_unread, View.ld_unit_zero (S := S1x2048x128) hz3, View.ld_unit_zero (S := S1x1x2048) hz3, View.ld_unit_zero (S := S1x2048) hz2, View.ld_unit_zero (S := S2048x128) hz2, View.readCov_unit_zero (S := S1x2048) _ hz2, View.readCov_unit_zero (S := S2048x128) _ hz2, View.readCov_unit_zero (S := S1x1x2048) _ hz3, View.canon_unit_zero (S := S1x2048) hz2, View.canon_unit_zero (S := S2048x128) hz2, View.canon_unit_zero (S := S1x1x2048) hz3]
  rfl

theorem out_A_3 (c : Dev nD) (i : grid0.Coords) (a2 : Memref sig .tc .vmem S1x2048x128 .f32) (h2 : a2.IsWhole) (a3 : Memref sig .tc .vmem S1x2048x128 .f32) (h3 : a3.IsWhole) (a4 : Memref sig .tc .vmem S1x1x2048 .f32) (h4 : a4.IsWhole) (a5 : Memref sig .tc .vmem S1x1x2048 .f32) (h5 : a5.IsWhole) (a6 : Memref sig .tc .vmem S1x2048 .f32) (h6 : a6.IsWhole) (a7 : Memref sig .tc .vmem S1x2048 .f32) (h7 : a7.IsWhole) (a8 : Memref sig .tc .vmem S2048x128 .bf16) (h8 : a8.IsWhole) (a9 : Memref sig .tc .vmem S2048x128 .bf16) (h9 : a9.IsWhole) (hc : cond0_0 i) (x0 x1 : Vec F S1x2048x128 .f32) :
    out0_A_3 c i a2 h2 a3 h3 a4 h4 a5 h5 a6 h6 a7 h7 a8 h8 a9 h9 hc x0 x1 = topoStep i k0_pay4 (k0_pay9 x0) (k0_pay11 (k0_pay10 x1)) := by
  unfold out0_A_3
  rw [View.read_writes_eq_canon _ _ _ (cover0_A_3 c i a2 h2 a3 h3 a4 h4 a5 h5 a6 h6 a7 h7 a8 h8 a9 h9 hc x0 x1)]
  unfold kernelRun0_A
  dsimp only
  sl_unfold_words
  rw [View.canon_cons_unit_zero (S := S1x1x2048) hz3]
  simp only [View.readAt_eq_ld, View.read_writes_junk_eq_canon, h2.read_unread, h3.read_unread, h4.read_unread, h5.read_unread, h6.read_unread, h7.read_unread, h8.read_unread, h9.read_unread, View.ld_unit_zero (S := S1x2048x128) hz3, View.ld_unit_zero (S := S1x1x2048) hz3, View.ld_unit_zero (S := S1x2048) hz2, View.ld_unit_zero (S := S2048x128) hz2, View.readCov_unit_zero (S := S1x2048) _ hz2, View.readCov_unit_zero (S := S2048x128) _ hz2, View.readCov_unit_zero (S := S1x1x2048) _ hz3, View.canon_unit_zero (S := S1x2048) hz2, View.canon_unit_zero (S := S2048x128) hz2, View.canon_unit_zero (S := S1x1x2048) hz3]
  rfl

end Cert.KernelIdeal.Pieces
end
-- ==== Proof.LibContract1.lean ====
/-
  A matrix product whose dimension numbers contract ONE axis, read at a result index at the ideal values, for any
  dimension record: the kernel's `tpu.matmul` into the zero accumulator and the host's `dot_general` are both the sum,
  over that axis's coordinate `k : Fin n`, of the operands' products, each operand read at an index the caller NAMES
  (`L k`, `R k`) and proves to be where the record sends the result index and `k`. The caller's two obligations are
  per-axis facts about `DotDims.lhsIdx` / `rhsIdx` (`DotDims.lhsIdx_val_of_single` on the contracted axis, two `dif`
  rewrites on a kept one); everything else — opening the product, re-indexing the contraction shape's one-axis index by
  `Fin n` — is done here once.
-/
import Idealize.ShloMosaic.PureOps.Ideal.Laws
import Idealize.ShloMosaic.Lib.ValueIdx

noncomputable section

namespace Cert.LibContract1

open Idealize.ShloMosaic Idealize.ShloMosaic.ValueIdx

/-- A `tpu.matmul` into the f32 zero splat, one contracted axis of extent `n`: at `j` it is `∑ k, lhs (L k) · rhs (R k)`. -/
theorem matmul_zero_single {sl sr so : Shape} {φ₁ φ₂ : FTy} (d : DotDims sl sr so) (n : ℕ) (hr : d.contr.rank = 1)
    (hs : d.contr.size ⟨0, by omega⟩ = n) (lhs : FVec Ideal sl φ₁) (rhs : FVec Ideal sr φ₂) (j : so.Idx)
    (L : Fin n → sl.Idx) (R : Fin n → sr.Idx)
    (hL : ∀ k, d.lhsIdx j ((contrEquiv1 d n hr hs).symm k) = L k)
    (hR : ∀ k, d.rhsIdx j ((contrEquiv1 d n hr hs).symm k) = R k) :
    matmul d none lhs rhs (constant (F := Ideal) so .f32 0x00000000#32) j = ∑ k : Fin n, lhs (L k) * rhs (R k) := by
  simp only [matmul]
  rw [Ideal.matmul_constant_zero_apply, ← Equiv.sum_comp (contrEquiv1 d n hr hs).symm]
  exact Finset.sum_congr rfl fun k _ => by rw [hL k, hR k]

/-- The host's `dot_general`, one contracted axis of extent `n`: at `j` it is `∑ k, lhs (L k) · rhs (R k)`. -/
theorem dotGeneral_single {sl sr so : Shape} {φ₁ φ₂ : FTy} (d : DotDims sl sr so) (n : ℕ) (hr : d.contr.rank = 1)
    (hs : d.contr.size ⟨0, by omega⟩ = n) (lhs : FVec Ideal sl φ₁) (rhs : FVec Ideal sr φ₂) (j : so.Idx)
    (L : Fin n → sl.Idx) (R : Fin n → sr.Idx)
    (hL : ∀ k, d.lhsIdx j ((contrEquiv1 d n hr hs).symm k) = L k)
    (hR : ∀ k, d.rhsIdx j ((contrEquiv1 d n hr hs).symm k) = R k) :
    Host.dotGeneral d none lhs rhs j = ∑ k : Fin n, lhs (L k) * rhs (R k) := by
  simp only [Host.dotGeneral]
  rw [Ideal.dotGeneral_apply, ← Equiv.sum_comp (contrEquiv1 d n hr hs).symm]
  exact Finset.sum_congr rfl fun k _ => by rw [hL k, hR k]

end Cert.LibContract1

end
-- ==== Proof.LibBroadcast2.lean ====
/-
  Two rank-2 broadcasts read at an entry: a column [a, 1] spread over b lanes (what a row reduction kept with its unit
  axis becomes when it is spread back over the row), and a one-entry array [1, 1] spread over [a, b].
-/
import Idealize.ShloMosaic.Lib.Pipeline.Value
import Idealize.ShloMosaic.Lib.ValueIdx

noncomputable section

namespace Cert.LibBroadcast2

open Idealize.ShloMosaic Idealize.ShloMosaic.ValueIdx

/-- A column [a, 1] spread over b lanes reads, at (p, c), the column at (p, 0). -/
theorem bcast_col_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A [1, 1] array spread over [a, b] reads its one entry everywhere. -/
theorem bcast_11_apply {α : Type} {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

end Cert.LibBroadcast2

end
-- ==== Proof.LibIdx.lean ====
/-
  Sums over a rank-1 index set by its one coordinate, and the column forms of a shape cast that a sum with
  `keepdims` meets: a vector [a] viewed as a column [a, 1], and a one-element vector [1] viewed as [1, 1].
-/
import Idealize.ShloMosaic.Lib.Pipeline.Value
import Idealize.ShloMosaic.Lib.ValueIdx

noncomputable section

namespace Cert.LibIdx

open Idealize.ShloMosaic Idealize.ShloMosaic.ValueIdx
open scoped BigOperators

/-- A rank-1 index is its coordinate. -/
def idxEquiv1 {n : Nat} : (⟨1, ![n]⟩ : Shape).Idx ≃ Fin n where
  toFun i := i 0
  invFun a := ix1 a
  left_inv i := (eq_ix1 i).symm
  right_inv _ := rfl

/-- So a sum over a rank-1 index set is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- An `[a]` vector cast to the column `[a, 1]` reads, at `(i, u)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- Every index of a [1, 1] array is (0, 0). -/
theorem idx11_eq (y : (⟨2, ![1, 1]⟩ : Shape).Idx) : y = ix2 (0 : Fin 1) (0 : Fin 1) := by
  funext a
  match a with
  | ⟨0, _⟩ => exact Subsingleton.elim (α := Fin 1) _ _
  | ⟨1, _⟩ => exact Subsingleton.elim (α := Fin 1) _ _

end Cert.LibIdx

end
-- ==== Proof.Payloads.lean ====
/-
  The body's arithmetic read at an index, at the ideal values.

  Each value the body computes is a function of the values it loaded: a row's squared norm (a sum over the 128
  features), the Gram entries (a matrix product whose two operands are both contracted on the feature axis), the clamped
  squared distance, and the two accumulators' new contents (the old contents plus a sum over the tile's 256 rows). Read
  at an index, each is the formula of its entries.
-/
import proofs.«175647_j2980707303718_2_alg».proof.Proof.Gen.KernelIdeal.Skeleton
import proofs.«175647_j2980707303718_2_alg».proof.Proof.LibContract1
import proofs.«175647_j2980707303718_2_alg».proof.Proof.LibBroadcast2
import proofs.«175647_j2980707303718_2_alg».proof.Proof.LibIdx
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payloads

open Cert.KernelIdeal Cert.KernelIdeal.Gen Idealize.ShloMosaic Idealize.ShloMosaic.ValueIdx
open scoped BigOperators

/-- A sum along the second axis of an [a, b] array, at row r: the sum over that row's entries. -/
theorem rowsum_apply {a b : ℕ} (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (r : Fin a) :
    multiReduction .add [1] ⟨1, ![a]⟩ v 0x00000000#32 h hφ hacc (ix1 r) = ∑ k : Fin b, v (ix2 r k) :=
  (Ideal.multiReduction_add_single v _ h hφ hacc (ix1 r)).trans
    (Finset.sum_congr rfl fun k _ => congrArg v (funext fun d => match d with | ⟨0, _⟩ => rfl | ⟨1, _⟩ => rfl))

/-- A sum along the first axis of an [a, b] array, at column j: the sum over that column's entries. -/
theorem colsum_apply {a b : ℕ} (v : FVec Ideal ⟨2, ![a, b]⟩ .f32) (h : Shape.Reduces ⟨2, ![a, b]⟩ [0] ⟨1, ![b]⟩)
    (hφ : FKind.Formats .f32) (hacc : (0x00000000#32 : BitVec 32) = FKind.add.neutral .f32 hφ) (j : Fin b) :
    multiReduction .add [0] ⟨1, ![b]⟩ v 0x00000000#32 h hφ hacc (ix1 j) = ∑ r : Fin a, v (ix2 r j) :=
  (Ideal.multiReduction_add_single v _ h hφ hacc (ix1 j)).trans
    (Finset.sum_congr rfl fun k _ => congrArg v (funext fun d => match d with | ⟨0, _⟩ => rfl | ⟨1, _⟩ => rfl))

/-- A row's squared norm, of a [1, 256, 128] tile, kept as a column. -/
theorem pay12_apply (v9 : Vec Ideal S1x256x128 .f32) (r : Fin 256) (u : Fin 1) :
    k0_pay12 (F := Ideal) v9 (ix2 r u) = ∑ k : Fin 128, v9 (ix3 (0 : Fin 1) r k) * v9 (ix3 (0 : Fin 1) r k) := by
  unfold k0_pay12
  refine (Cert.LibIdx.shapeCast_a_a1_apply _ _ r u).trans ?_
  refine (rowsum_apply _ _ _ _ r).trans ?_
  refine Finset.sum_congr rfl fun k _ => ?_
  have e := shapeCast_1ab_ab_apply v9 shapeCasts_S1x256x128_S256x128 r k
  exact congrArg₂ (· * ·) e e

/-- A row's squared norm, of a whole [1, 2048, 128] block, kept as a row vector [1, 2048]. -/
theorem pay7_apply (v75 : Vec Ideal S1x2048x128 .f32) (u : Fin 1) (j : Fin 2048) :
    k0_pay7 (F := Ideal) v75 (ix2 u j) = ∑ k : Fin 128, v75 (ix3 (0 : Fin 1) j k) * v75 (ix3 (0 : Fin 1) j k) := by
  unfold k0_pay7 k0_pay5
  rw [shapeCast_self]
  refine (shapeCast_a_1a_apply _ _ u j).trans ?_
  refine (rowsum_apply _ _ _ _ j).trans ?_
  refine Finset.sum_congr rfl fun k _ => ?_
  have e := shapeCast_1ab_ab_apply v75 shapeCasts_S1x2048x128_S2048x128 j k
  exact congrArg₂ (· * ·) e e

theorem pay8_apply (v77 : Vec Ideal S1x2048x128 .f32) (u : Fin 1) (j : Fin 2048) :
    k0_pay8 (F := Ideal) v77 (ix2 u j) = ∑ k : Fin 128, v77 (ix3 (0 : Fin 1) j k) * v77 (ix3 (0 : Fin 1) j k) := by
  unfold k0_pay8 k0_pay6
  rw [shapeCast_self]
  refine (shapeCast_a_1a_apply _ _ u j).trans ?_
  refine (rowsum_apply _ _ _ _ j).trans ?_
  refine Finset.sum_congr rfl fun k _ => ?_
  have e := shapeCast_1ab_ab_apply v77 shapeCasts_S1x2048x128_S2048x128 j k
  exact congrArg₂ (· * ·) e e

/-- The block as a [2048, 128] array (a change of float format is the identity). -/
theorem pay9_apply (v75 : Vec Ideal S1x2048x128 .f32) (n : Fin 2048) (k : Fin 128) :
    k0_pay9 (F := Ideal) v75 (ix2 n k) = v75 (ix3 (0 : Fin 1) n k) := by
  unfold k0_pay9 k0_pay5
  rw [shapeCast_self]
  exact shapeCast_1ab_ab_apply v75 shapeCasts_S1x2048x128_S2048x128 n k

theorem pay11_apply (v77 : Vec Ideal S1x2048x128 .f32) (n : Fin 2048) (k : Fin 128) :
    k0_pay11 (F := Ideal) (k0_pay10 v77) (ix2 n k) = v77 (ix3 (0 : Fin 1) n k) := by
  unfold k0_pay11 k0_pay10 k0_pay6
  rw [shapeCast_self]
  exact shapeCast_1ab_ab_apply v77 shapeCasts_S1x2048x128_S2048x128 n k

/-- The zeroed accumulator. -/
theorem pay3_apply (u0 u1 : Fin 1) (j : Fin 2048) : k0_pay3 (F := Ideal) (ix3 u0 u1 j) = Ideal.ofBits .f32 0x00000000#32 := by
  unfold k0_pay3
  exact shapeCast_ab_1ab_apply _ shapeCasts_S1x2048_S1x1x2048 u0 u1 j

theorem pay4_apply (u0 u1 : Fin 1) (j : Fin 2048) : k0_pay4 (F := Ideal) (ix3 u0 u1 j) = Ideal.ofBits .f32 0x00000000#32 := by
  unfold k0_pay4
  exact shapeCast_ab_1ab_apply _ shapeCasts_S1x2048_S1x1x2048 u0 u1 j

/-! ## The Gram products -/

local notation "dd" => dot_S256x128_S2048x128_S256x2048_1_1_0_0_n_n

theorem lhs_kept (i : S256x2048.Idx) (q : (DotDims.contr dd).Idx) : (DotDims.lhsIdx dd i q 0).val = (i 0).val := by
  unfold DotDims.lhsIdx
  rw [dif_neg (show ¬(0 : Fin S256x128.rank) ∈ DotDims.lhsBatch dd by decide),
    dif_pos (show (0 : Fin S256x128.rank) ∈ DotDims.lhsNonContracting dd by decide)]
  rfl

theorem rhs_kept (i : S256x2048.Idx) (q : (DotDims.contr dd).Idx) : (DotDims.rhsIdx dd i q 0).val = (i 1).val := by
  unfold DotDims.rhsIdx
  rw [dif_neg (show ¬(0 : Fin S2048x128.rank) ∈ DotDims.rhsBatch dd by decide),
    dif_pos (show (0 : Fin S2048x128.rank) ∈ DotDims.rhsNonContracting dd by decide)]
  rfl

theorem lhsIdx_eq (r : Fin 256) (j : Fin 2048) (k : Fin 128) :
    DotDims.lhsIdx dd (ix2 r j) ((contrEquiv1 dd 128 rfl rfl).symm k) = ix2 r k := by
  funext a
  apply Fin.ext
  match a with
  | ⟨0, _⟩ => exact lhs_kept _ _
  | ⟨1, _⟩ =>
    exact (DotDims.lhsIdx_val_of_single dd rfl (ix2 r j) _).trans (contrEquiv1_symm_val dd 128 rfl rfl k)

theorem rhsIdx_eq (r : Fin 256) (j : Fin 2048) (k : Fin 128) :
    DotDims.rhsIdx dd (ix2 r j) ((contrEquiv1 dd 128 rfl rfl).symm k) = ix2 j k := by
  funext a
  apply Fin.ext
  match a with
  | ⟨0, _⟩ => exact rhs_kept _ _
  | ⟨1, _⟩ =>
    exact (DotDims.rhsIdx_val_of_single dd rfl (ix2 r j) _).trans (contrEquiv1_symm_val dd 128 rfl rfl k)

/-- Entry (r, j) of the product of a [256, 128] tile with a [2048, 128] array, both contracted on the features:
    the inner product of the tile's row r and the array's row j. -/
theorem pay13_apply (v18 : Vec Ideal S256x128 .bf16) (v21 : Vec Ideal S2048x128 .bf16) (r : Fin 256) (j : Fin 2048) :
    k0_pay13 (F := Ideal) v18 v21 (ix2 r j) = ∑ k : Fin 128, v18 (ix2 r k) * v21 (ix2 j k) := by
  unfold k0_pay13
  exact Cert.LibContract1.matmul_zero_single dd 128 rfl rfl v18 v21 (ix2 r j) (fun k => ix2 r k) (fun k => ix2 j k)
    (lhsIdx_eq r j) (rhsIdx_eq r j)

theorem pay14_apply (v20 : Vec Ideal S256x128 .bf16) (v23 : Vec Ideal S2048x128 .bf16) (r : Fin 256) (j : Fin 2048) :
    k0_pay14 (F := Ideal) v20 v23 (ix2 r j) = ∑ k : Fin 128, v20 (ix2 r k) * v23 (ix2 j k) := by
  unfold k0_pay14
  exact Cert.LibContract1.matmul_zero_single dd 128 rfl rfl v20 v23 (ix2 r j) (fun k => ix2 r k) (fun k => ix2 j k)
    (lhsIdx_eq r j) (rhsIdx_eq r j)

/-! ## The clamped squared distance and the accumulators -/

/-- The clamped squared distance of the tile's row r and row j: (the tile row's norm + row j's norm from the carried
    norms) - 2 * (their inner product), never below zero. -/
theorem pay15_apply (v6 : Vec Ideal S1x256x128 .f32) (v18 : Vec Ideal S256x128 .bf16) (v21 : Vec Ideal S2048x128 .bf16)
    (v25 : Vec Ideal S1x2048 .f32) (r : Fin 256) (j : Fin 2048) :
    k0_pay15 (F := Ideal) v6 v18 v21 v25 (ix2 r j)
      = max (((∑ k : Fin 128, v6 (ix3 (0 : Fin 1) r k) * v6 (ix3 (0 : Fin 1) r k)) + v25 (ix2 (0 : Fin 1) j))
          - Ideal.ofBits .f32 0x40000000#32 * (∑ k : Fin 128, v18 (ix2 r k) * v21 (ix2 j k)))
        (Ideal.ofBits .f32 0x00000000#32) := by
  unfold k0_pay15
  refine congrArg₂ max (congrArg₂ (· - ·) (congrArg₂ (· + ·) ?_ ?_) (congrArg (Ideal.ofBits .f32 0x40000000#32 * ·) ?_)) rfl
  · refine (Cert.LibBroadcast2.bcast_col_apply _ _ r j).trans ?_
    refine (Cert.LibIdx.shapeCast_a_a1_apply _ _ r (0 : Fin 1)).trans ?_
    refine (rowsum_apply _ _ _ _ r).trans ?_
    refine Finset.sum_congr rfl fun k _ => ?_
    have e := shapeCast_1ab_ab_apply v6 shapeCasts_S1x256x128_S256x128 r k
    exact congrArg₂ (· * ·) e e
  · exact broadcastTo_1b_ab_apply v25 _ r j
  · exact pay13_apply v18 v21 r j

/-- The distance accumulator's new contents at column j: the old contents plus the sum, over the tile's 256 rows, of
    the squared difference of the two distances (the first from the squared distance v33 already clamped, the second
    clamped here). -/
theorem pay1_apply (v16 : FVec Ideal S256x1 .f32) (v24 v33 : FVec Ideal S256x2048 .f32) (v34 : Vec Ideal S1x2048 .f32)
    (v55 : Vec Ideal S1x1x2048 .f32) (u0 u1 : Fin 1) (j : Fin 2048) :
    k0_pay1 (F := Ideal) v16 v24 v33 v34 v55 (ix3 u0 u1 j)
      = v55 (ix3 (0 : Fin 1) u1 j) + ∑ r : Fin 256,
          (Ideal.sqrt (v33 (ix2 r j)) - Ideal.sqrt (max ((v16 (ix2 r (0 : Fin 1)) + v34 (ix2 (0 : Fin 1) j))
              - Ideal.ofBits .f32 0x40000000#32 * v24 (ix2 r j)) (Ideal.ofBits .f32 0x00000000#32)))
          * (Ideal.sqrt (v33 (ix2 r j)) - Ideal.sqrt (max ((v16 (ix2 r (0 : Fin 1)) + v34 (ix2 (0 : Fin 1) j))
              - Ideal.ofBits .f32 0x40000000#32 * v24 (ix2 r j)) (Ideal.ofBits .f32 0x00000000#32))) := by
  unfold k0_pay1
  refine (shapeCast_ab_1ab_apply _ shapeCasts_S1x2048_S1x1x2048 u0 u1 j).trans ?_
  refine congrArg₂ (· + ·) ?_ ?_
  · exact shapeCast_1ab_ab_apply v55 shapeCasts_S1x1x2048_S1x2048 u1 j
  · refine (shapeCast_a_1a_apply _ _ u1 j).trans ?_
    refine (colsum_apply _ _ _ _ j).trans ?_
    refine Finset.sum_congr rfl fun r _ => ?_
    have e : (broadcastTo S256x2048 v16 broadcasts_S256x1_S256x2048 (ix2 r j) : Ideal .f32) = v16 (ix2 r (0 : Fin 1)) :=
      Cert.LibBroadcast2.bcast_col_apply v16 _ r j
    have e' : (broadcastTo S256x2048 v34 broadcasts_S1x2048_S256x2048 (ix2 r j) : Ideal .f32) = v34 (ix2 (0 : Fin 1) j) :=
      broadcastTo_1b_ab_apply v34 _ r j
    show (Ideal.sqrt (v33 (ix2 r j)) - Ideal.sqrt (max ((broadcastTo S256x2048 v16 broadcasts_S256x1_S256x2048 (ix2 r j)
        + broadcastTo S256x2048 v34 broadcasts_S1x2048_S256x2048 (ix2 r j)) - Ideal.ofBits .f32 0x40000000#32 * v24 (ix2 r j))
          (Ideal.ofBits .f32 0x00000000#32)))
      * (Ideal.sqrt (v33 (ix2 r j)) - Ideal.sqrt (max ((broadcastTo S256x2048 v16 broadcasts_S256x1_S256x2048 (ix2 r j)
        + broadcastTo S256x2048 v34 broadcasts_S1x2048_S256x2048 (ix2 r j)) - Ideal.ofBits .f32 0x40000000#32 * v24 (ix2 r j))
          (Ideal.ofBits .f32 0x00000000#32))) = _
    rw [e, e']

/-- The sigmoid accumulator's new contents at column j: the old contents plus the sum, over the tile's 256 rows, of the
    squared difference of the two sigmoids. -/
theorem pay2_apply (v22 v24 : FVec Ideal S256x2048 .f32) (v61 : Vec Ideal S1x1x2048 .f32) (u0 u1 : Fin 1) (j : Fin 2048) :
    k0_pay2 (F := Ideal) v22 v24 v61 (ix3 u0 u1 j)
      = v61 (ix3 (0 : Fin 1) u1 j) + ∑ r : Fin 256,
          (Ideal.logistic (v22 (ix2 r j)) - Ideal.logistic (v24 (ix2 r j)))
            * (Ideal.logistic (v22 (ix2 r j)) - Ideal.logistic (v24 (ix2 r j))) := by
  unfold k0_pay2
  refine (shapeCast_ab_1ab_apply _ shapeCasts_S1x2048_S1x1x2048 u0 u1 j).trans ?_
  refine congrArg₂ (· + ·) ?_ ?_
  · exact shapeCast_1ab_ab_apply v61 shapeCasts_S1x1x2048_S1x2048 u1 j
  · refine (shapeCast_a_1a_apply _ _ u1 j).trans ?_
    refine (colsum_apply _ _ _ _ j).trans ?_
    exact Finset.sum_congr rfl fun r _ => rfl

end Cert.KernelIdeal.Payloads

end
-- ==== Proof.Step.lean ====
/-
  One grid point's contribution, in the specification's terms.

  Grid point t works on batch t / 8 and on tile t % 8 of that batch's 2048 rows: rows 256 (t % 8) + r, r < 256. The
  block an input window stages at t is the batch's whole [2048, 128] slab. Given the batch's slabs, their rows' squared
  norms and their copies, the point adds to the distance accumulator, at column j, the sum over the tile's rows n of
  relT (b, n, j), and to the sigmoid accumulator the sum of topoT (b, n, j).
-/
import proofs.«175647_j2980707303718_2_alg».proof.Proof.Gen.KernelIdeal.Frame
import proofs.«175647_j2980707303718_2_alg».proof.Proof.Pieces
import proofs.«175647_j2980707303718_2_alg».proof.Proof.Payloads
import proofs.«175647_j2980707303718_2_alg».proof.Proof.Spec
import Idealize.ShloMosaic.Lib.Pipeline.Value

noncomputable section

open Idealize.ShloMosaic Idealize.ShloMosaic.TcCoe Idealize.SL.Sem
open Idealize.ShloMosaic.Pipeline (Dat)

namespace Cert.KernelIdeal.Step

open Cert.KernelIdeal Cert.KernelIdeal.Gen Cert.KernelIdeal.Pieces Cert.KernelIdeal.Payloads
open Idealize.ShloMosaic.ValueIdx Cert.Spec
open scoped BigOperators

/-! ## The grid: which batch and which tile a point works on -/

/-- The tile's first row, in a [1, 2048, 128] block, at point t: row 256 (t % 8). -/
theorem off1_eq : ∀ t : Fin cfg0.N, k0_off1 (grid0.coords t) = ![0, 256 * (t.val % 8), 0] :=
  (by decide +kernel : ∀ t : Fin grid0.N, k0_off1 (grid0.coords t) = ![0, 256 * (t.val % 8), 0])

/-- The same in a [2048, 128] array. -/
theorem off2_eq : ∀ t : Fin cfg0.N, k0_off2 (grid0.coords t) = ![256 * (t.val % 8), 0] :=
  (by decide +kernel : ∀ t : Fin grid0.N, k0_off2 (grid0.coords t) = ![256 * (t.val % 8), 0])

/-- Each window's block at point t is block (t / 8, 0, 0) of its array. -/
theorem index0 : ∀ t : Fin cfg0.N, win0_0.index t 0 = t.val / 8 ∧ win0_0.index t 1 = 0 ∧ win0_0.index t 2 = 0 :=
  (by decide +kernel : ∀ t : Fin grid0.N, win0_0.index t 0 = t.val / 8 ∧ win0_0.index t 1 = 0 ∧ win0_0.index t 2 = 0)
theorem index1 : ∀ t : Fin cfg0.N, win0_1.index t 0 = t.val / 8 ∧ win0_1.index t 1 = 0 ∧ win0_1.index t 2 = 0 :=
  (by decide +kernel : ∀ t : Fin grid0.N, win0_1.index t 0 = t.val / 8 ∧ win0_1.index t 1 = 0 ∧ win0_1.index t 2 = 0)
theorem index2 : ∀ t : Fin cfg0.N, win0_2.index t 0 = t.val / 8 ∧ win0_2.index t 1 = 0 ∧ win0_2.index t 2 = 0 :=
  (by decide +kernel : ∀ t : Fin grid0.N, win0_2.index t 0 = t.val / 8 ∧ win0_2.index t 1 = 0 ∧ win0_2.index t 2 = 0)
theorem index3 : ∀ t : Fin cfg0.N, win0_3.index t 0 = t.val / 8 ∧ win0_3.index t 1 = 0 ∧ win0_3.index t 2 = 0 :=
  (by decide +kernel : ∀ t : Fin grid0.N, win0_3.index t 0 = t.val / 8 ∧ win0_3.index t 1 = 0 ∧ win0_3.index t 2 = 0)

/-- Row r of the tile at point t, in a [1, 2048, 128] block: row 256 (t % 8) + r. -/
theorem rows3_idx (t : Fin cfg0.N) (kk : Fin 8) (hk : kk.val = t.val % 8) (r : Fin 256) (k : Fin 128) :
    (rows3 (grid0.coords t)).idx (ix3 (0 : Fin 1) r k) = ix3 (0 : Fin 1) (rowOf kk r) k := by
  funext a
  apply Fin.ext
  have ho := off1_eq t
  match a with
  | ⟨0, _⟩ => show k0_off1 (grid0.coords t) 0 + 1 * 0 = 0; rw [ho]; rfl
  | ⟨1, _⟩ => show k0_off1 (grid0.coords t) 1 + 1 * r.val = 256 * kk.val + r.val; rw [ho, hk]; show 256 * (t.val % 8) + 1 * r.val = _; omega
  | ⟨2, _⟩ => show k0_off1 (grid0.coords t) 2 + 1 * k.val = k.val; rw [ho]; show 0 + 1 * k.val = _; omega

/-- The same in a [2048, 128] array. -/
theorem rows2_idx (t : Fin cfg0.N) (kk : Fin 8) (hk : kk.val = t.val % 8) (r : Fin 256) (k : Fin 128) :
    (rows2 (grid0.coords t)).idx (ix2 r k) = ix2 (rowOf kk r) k := by
  funext a
  apply Fin.ext
  have ho := off2_eq t
  match a with
  | ⟨0, _⟩ => show k0_off2 (grid0.coords t) 0 + 1 * r.val = 256 * kk.val + r.val; rw [ho, hk]; show 256 * (t.val % 8) + 1 * r.val = _; omega
  | ⟨1, _⟩ => show k0_off2 (grid0.coords t) 1 + 1 * k.val = k.val; rw [ho]; show 0 + 1 * k.val = _; omega

/-! ## The point's contribution -/

section
variable (X0 X1 : Arr) (b : Fin 4)
variable (x0 x1 : Vec Ideal S1x2048x128 .f32) (s0 s1 : Vec Ideal S1x2048 .f32) (s2 s3 : Vec Ideal S2048x128 .bf16)

/-- At point t, from the batch's slabs, norms and copies: the distance accumulator at column j gains the tile's sum. -/
theorem relStep_apply (t : Fin cfg0.N) (kk : Fin 8) (hk : kk.val = t.val % 8) (o2 : Vec Ideal S1x1x2048 .f32)
    (hx0 : ∀ (u : Fin 1) (n : Fin 2048) (k : Fin 128), x0 (ix3 u n k) = X0 (ix3 b n k))
    (hx1 : ∀ (u : Fin 1) (n : Fin 2048) (k : Fin 128), x1 (ix3 u n k) = X1 (ix3 b n k))
    (hs0 : ∀ (u : Fin 1) (j : Fin 2048), s0 (ix2 u j) = Spec.sq X0 b j)
    (hs1 : ∀ (u : Fin 1) (j : Fin 2048), s1 (ix2 u j) = Spec.sq X1 b j)
    (hs2 : ∀ (n : Fin 2048) (k : Fin 128), s2 (ix2 n k) = X0 (ix3 b n k))
    (hs3 : ∀ (n : Fin 2048) (k : Fin 128), s3 (ix2 n k) = X1 (ix3 b n k))
    (u0 u1 : Fin 1) (j : Fin 2048) :
    relStep (F := Ideal) (grid0.coords t) x0 x1 o2 s0 s1 s2 s3 (ix3 u0 u1 j)
      = o2 (ix3 (0 : Fin 1) u1 j) + ∑ r : Fin 256, Spec.relT X0 X1 b (rowOf kk r) j := by
  unfold relStep
  rw [pay1_apply]
  refine congrArg (o2 (ix3 (0 : Fin 1) u1 j) + ·) (Finset.sum_congr rfl fun r _ => ?_)
  rw [pay15_apply, pay12_apply, pay14_apply]
  simp only [View.ld, rows3_idx t kk hk, rows2_idx t kk hk, hx0, hx1, hs0, hs1, hs2, hs3, Spec.relT, Spec.dist, Spec.d2,
    Spec.sq, Spec.gram]

/-- And the sigmoid accumulator likewise. -/
theorem topoStep_apply (t : Fin cfg0.N) (kk : Fin 8) (hk : kk.val = t.val % 8) (o3 : Vec Ideal S1x1x2048 .f32)
    (hs2 : ∀ (n : Fin 2048) (k : Fin 128), s2 (ix2 n k) = X0 (ix3 b n k))
    (hs3 : ∀ (n : Fin 2048) (k : Fin 128), s3 (ix2 n k) = X1 (ix3 b n k))
    (u0 u1 : Fin 1) (j : Fin 2048) :
    topoStep (F := Ideal) (grid0.coords t) o3 s2 s3 (ix3 u0 u1 j)
      = o3 (ix3 (0 : Fin 1) u1 j) + ∑ r : Fin 256, Spec.topoT X0 X1 b (rowOf kk r) j := by
  unfold topoStep
  rw [pay2_apply]
  refine congrArg (o3 (ix3 (0 : Fin 1) u1 j) + ·) (Finset.sum_congr rfl fun r _ => ?_)
  rw [pay13_apply, pay14_apply]
  simp only [View.ld, rows2_idx t kk hk, hs2, hs3, Spec.topoT, Spec.gram]

end

/-! ## The blocks the input windows stage -/

section
variable {F : FTy → Type} [FloatOps F]
variable (m : (ℓ : Loc nD τ sig) → Buf (Elt F) ℓ)

/-- Window 0's block at point t is batch t / 8 of the first argument. -/
theorem iblk0_apply (c : Dev nD) (t : Fin cfg0.N) (b : Fin 4) (hb : b.val = t.val / 8) (u : Fin 1) (n : Fin 2048) (k : Fin 128) :
    (iblk m c 0 t : Vec F S1x2048x128 .f32) (ix3 u n k) = V m c main_arg0 (ix3 b n k) := by
  have hi := index0 t
  have hu := u.isLt
  unfold iblk
  rw [View.read_apply]
  show V m c main_arg0 _ = V m c main_arg0 _
  refine congrArg (V m c main_arg0) (funext fun a => Fin.ext ?_)
  match a with
  | ⟨0, _⟩ => show win0_0.index t 0 * 1 + 1 * u.val = b.val; rw [hi.1, hb]; omega
  | ⟨1, _⟩ => show win0_0.index t 1 * 2048 + 1 * n.val = n.val; rw [hi.2.1]; omega
  | ⟨2, _⟩ => show win0_0.index t 2 * 128 + 1 * k.val = k.val; rw [hi.2.2]; omega

/-- Window 1's block at point t is batch t / 8 of the second argument. -/
theorem iblk1_apply (c : Dev nD) (t : Fin cfg0.N) (b : Fin 4) (hb : b.val = t.val / 8) (u : Fin 1) (n : Fin 2048) (k : Fin 128) :
    (iblk m c 1 t : Vec F S1x2048x128 .f32) (ix3 u n k) = V m c main_arg1 (ix3 b n k) := by
  have hi := index1 t
  have hu := u.isLt
  unfold iblk
  rw [View.read_apply]
  show V m c main_arg1 _ = V m c main_arg1 _
  refine congrArg (V m c main_arg1) (funext fun a => Fin.ext ?_)
  match a with
  | ⟨0, _⟩ => show win0_1.index t 0 * 1 + 1 * u.val = b.val; rw [hi.1, hb]; omega
  | ⟨1, _⟩ => show win0_1.index t 1 * 2048 + 1 * n.val = n.val; rw [hi.2.1]; omega
  | ⟨2, _⟩ => show win0_1.index t 2 * 128 + 1 * k.val = k.val; rw [hi.2.2]; omega

end

end Cert.KernelIdeal.Step

end
-- ==== Proof.Acc.lean ====
/-
  What the accumulators and the carried scratch hold after each grid point.

  After point n — batch b = n / 8, tile n % 8 — the two norm scratches hold the squared norms of the batch's rows in
  the two arguments, the two [2048, 128] scratches hold the batch's slabs, and each accumulator holds, at column j, the
  sum over the batch's tiles 0 … n % 8 of the tile's sum over its rows: by induction on the point, a batch's first
  point starting from zero and filling the scratch, every other point adding its tile to what the point before left.
-/
import proofs.«175647_j2980707303718_2_alg».proof.Proof.Step

noncomputable section

open Idealize.ShloMosaic Idealize.ShloMosaic.TcCoe Idealize.SL.Sem
open Idealize.ShloMosaic.Pipeline (Dat)

namespace Cert.KernelIdeal.Acc

open Cert.KernelIdeal Cert.KernelIdeal.Gen Cert.KernelIdeal.Pieces Cert.KernelIdeal.Payloads Cert.KernelIdeal.Step
open Idealize.ShloMosaic.ValueIdx Cert.Spec
open scoped BigOperators

variable (m : (ℓ : Loc nD τ sig) → Buf (Elt Ideal) ℓ)

/-- The two arguments as the region finds them. -/
abbrev A0 (c : Dev nD) : Arr := V m c main_arg0
abbrev A1 (c : Dev nD) : Arr := V m c main_arg1

/-- Tile k's sum of distance terms at column j of batch b. -/
def relTile (X0 X1 : Arr) (b : Fin 4) (j : Fin 2048) (k : Fin 8) : EReal := ∑ r : Fin 256, relT X0 X1 b (rowOf k r) j
/-- Tile k's sum of sigmoid terms at column j of batch b. -/
def topoTile (X0 X1 : Arr) (b : Fin 4) (j : Fin 2048) (k : Fin 8) : EReal := ∑ r : Fin 256, topoT X0 X1 b (rowOf k r) j

/-- What the six carried arrays hold after point n of batch b. -/
structure Inv (c : Dev nD) (n : ℕ) (hn : n < cfg0.N) (b : Fin 4) : Prop where
  o2 : ∀ (u0 u1 : Fin 1) (j : Fin 2048), (outsAt0 m c n hn).1 (ix3 u0 u1 j)
    = ∑ k ∈ Finset.range (n % 8 + 1), tileN (relTile (A0 m c) (A1 m c) b j) k
  o3 : ∀ (u0 u1 : Fin 1) (j : Fin 2048), (outsAt0 m c n hn).2.1 (ix3 u0 u1 j)
    = ∑ k ∈ Finset.range (n % 8 + 1), tileN (topoTile (A0 m c) (A1 m c) b j) k
  s0 : ∀ (u : Fin 1) (j : Fin 2048), (outsAt0 m c n hn).2.2.1 (ix2 u j) = Spec.sq (A0 m c) b j
  s1 : ∀ (u : Fin 1) (j : Fin 2048), (outsAt0 m c n hn).2.2.2.1 (ix2 u j) = Spec.sq (A1 m c) b j
  s2 : ∀ (n' : Fin 2048) (k : Fin 128), (outsAt0 m c n hn).2.2.2.2.1 (ix2 n' k) = A0 m c (ix3 b n' k)
  s3 : ∀ (n' : Fin 2048) (k : Fin 128), (outsAt0 m c n hn).2.2.2.2.2 (ix2 n' k) = A1 m c (ix3 b n' k)

/-- A batch's first point: the scratch is filled from the batch's slabs, and each accumulator is zero plus tile 0. -/
theorem first (c : Dev nD) (t : Fin cfg0.N) (h0 : t.val % 8 = 0) (b : Fin 4) (hb : b.val = t.val / 8) :
    Inv m c t.val t.isLt b := by
  have e_o2 : (outsAt0 m c t.val t.isLt).1 = out0_A_2 c (grid0.coords t) (ms0_0 t) (hs0_0 t) (ms0_1 t) (hs0_1 t) (ms0_2 t) (hs0_2 t) (ms0_3 t) (hs0_3 t) scM0_0 (Memref.isWhole_whole cc0_scratch0) scM0_1 (Memref.isWhole_whole cc0_scratch1) scM0_2 (Memref.isWhole_whole cc0_scratch2) scM0_3 (Memref.isWhole_whole cc0_scratch3) ((hcond0_0 t).mpr h0) (iblk m c 0 t) (iblk m c 1 t) := by rw [outsAt0_A m c t h0]
  have e_o3 : (outsAt0 m c t.val t.isLt).2.1 = out0_A_3 c (grid0.coords t) (ms0_0 t) (hs0_0 t) (ms0_1 t) (hs0_1 t) (ms0_2 t) (hs0_2 t) (ms0_3 t) (hs0_3 t) scM0_0 (Memref.isWhole_whole cc0_scratch0) scM0_1 (Memref.isWhole_whole cc0_scratch1) scM0_2 (Memref.isWhole_whole cc0_scratch2) scM0_3 (Memref.isWhole_whole cc0_scratch3) ((hcond0_0 t).mpr h0) (iblk m c 0 t) (iblk m c 1 t) := by rw [outsAt0_A m c t h0]
  have e_s0 : (outsAt0 m c t.val t.isLt).2.2.1 = sout0_A_0 c (grid0.coords t) (ms0_0 t) (hs0_0 t) (ms0_1 t) (hs0_1 t) (ms0_2 t) (hs0_2 t) (ms0_3 t) (hs0_3 t) scM0_0 (Memref.isWhole_whole cc0_scratch0) scM0_1 (Memref.isWhole_whole cc0_scratch1) scM0_2 (Memref.isWhole_whole cc0_scratch2) scM0_3 (Memref.isWhole_whole cc0_scratch3) ((hcond0_0 t).mpr h0) (iblk m c 0 t) (iblk m c 1 t) := by rw [outsAt0_A m c t h0]
  have e_s1 : (outsAt0 m c t.val t.isLt).2.2.2.1 = sout0_A_1 c (grid0.coords t) (ms0_0 t) (hs0_0 t) (ms0_1 t) (hs0_1 t) (ms0_2 t) (hs0_2 t) (ms0_3 t) (hs0_3 t) scM0_0 (Memref.isWhole_whole cc0_scratch0) scM0_1 (Memref.isWhole_whole cc0_scratch1) scM0_2 (Memref.isWhole_whole cc0_scratch2) scM0_3 (Memref.isWhole_whole cc0_scratch3) ((hcond0_0 t).mpr h0) (iblk m c 0 t) (iblk m c 1 t) := by rw [outsAt0_A m c t h0]
  have e_s2 : (outsAt0 m c t.val t.isLt).2.2.2.2.1 = sout0_A_2 c (grid0.coords t) (ms0_0 t) (hs0_0 t) (ms0_1 t) (hs0_1 t) (ms0_2 t) (hs0_2 t) (ms0_3 t) (hs0_3 t) scM0_0 (Memref.isWhole_whole cc0_scratch0) scM0_1 (Memref.isWhole_whole cc0_scratch1) scM0_2 (Memref.isWhole_whole cc0_scratch2) scM0_3 (Memref.isWhole_whole cc0_scratch3) ((hcond0_0 t).mpr h0) (iblk m c 0 t) (iblk m c 1 t) := by rw [outsAt0_A m c t h0]
  have e_s3 : (outsAt0 m c t.val t.isLt).2.2.2.2.2 = sout0_A_3 c (grid0.coords t) (ms0_0 t) (hs0_0 t) (ms0_1 t) (hs0_1 t) (ms0_2 t) (hs0_2 t) (ms0_3 t) (hs0_3 t) scM0_0 (Memref.isWhole_whole cc0_scratch0) scM0_1 (Memref.isWhole_whole cc0_scratch1) scM0_2 (Memref.isWhole_whole cc0_scratch2) scM0_3 (Memref.isWhole_whole cc0_scratch3) ((hcond0_0 t).mpr h0) (iblk m c 0 t) (iblk m c 1 t) := by rw [outsAt0_A m c t h0]
  have x0e := iblk0_apply m c t b hb
  have x1e := iblk1_apply m c t b hb
  have hs0 : ∀ (u : Fin 1) (j : Fin 2048), k0_pay7 (F := Ideal) (iblk m c 0 t) (ix2 u j) = Spec.sq (A0 m c) b j := fun u j => by
    rw [pay7_apply]; simp only [x0e, Spec.sq]
  have hs1 : ∀ (u : Fin 1) (j : Fin 2048), k0_pay8 (F := Ideal) (iblk m c 1 t) (ix2 u j) = Spec.sq (A1 m c) b j := fun u j => by
    rw [pay8_apply]; simp only [x1e, Spec.sq]
  have hs2 : ∀ (n' : Fin 2048) (k : Fin 128), k0_pay9 (F := Ideal) (iblk m c 0 t) (ix2 n' k) = A0 m c (ix3 b n' k) := fun n' k => by
    rw [pay9_apply]; exact x0e 0 n' k
  have hs3 : ∀ (n' : Fin 2048) (k : Fin 128), k0_pay11 (F := Ideal) (k0_pay10 (iblk m c 1 t)) (ix2 n' k) = A1 m c (ix3 b n' k) := fun n' k => by
    rw [pay11_apply]; exact x1e 0 n' k
  have hk : (⟨0, by decide⟩ : Fin 8).val = t.val % 8 := h0.symm
  refine ⟨fun u0 u1 j => ?_, fun u0 u1 j => ?_, fun u j => ?_, fun u j => ?_, fun n' k => ?_, fun n' k => ?_⟩
  · have e2 := e_o2.trans (out_A_2 (F := Ideal) c (grid0.coords t) (ms0_0 t) (hs0_0 t) (ms0_1 t) (hs0_1 t) (ms0_2 t) (hs0_2 t) (ms0_3 t) (hs0_3 t) scM0_0 (Memref.isWhole_whole cc0_scratch0) scM0_1 (Memref.isWhole_whole cc0_scratch1) scM0_2 (Memref.isWhole_whole cc0_scratch2) scM0_3 (Memref.isWhole_whole cc0_scratch3) ((hcond0_0 t).mpr h0) (iblk m c 0 t) (iblk m c 1 t))
    refine (congrFun e2 (ix3 u0 u1 j)).trans ?_
    refine (relStep_apply (X0 := A0 m c) (X1 := A1 m c) (b := b) (x0 := iblk m c 0 t) (x1 := iblk m c 1 t)
      (s0 := k0_pay7 (iblk m c 0 t)) (s1 := k0_pay8 (iblk m c 1 t)) (s2 := k0_pay9 (iblk m c 0 t))
      (s3 := k0_pay11 (k0_pay10 (iblk m c 1 t))) t ⟨0, by decide⟩ hk (k0_pay3 (F := Ideal)) x0e x1e hs0 hs1 hs2 hs3 u0 u1 j).trans ?_
    rw [pay3_apply, Ideal.ofBits_zero_f32, zero_add, h0, Finset.sum_range_one, tileN_of_lt _ 0 (by decide)]
    rfl
  · have e3 := e_o3.trans (out_A_3 (F := Ideal) c (grid0.coords t) (ms0_0 t) (hs0_0 t) (ms0_1 t) (hs0_1 t) (ms0_2 t) (hs0_2 t) (ms0_3 t) (hs0_3 t) scM0_0 (Memref.isWhole_whole cc0_scratch0) scM0_1 (Memref.isWhole_whole cc0_scratch1) scM0_2 (Memref.isWhole_whole cc0_scratch2) scM0_3 (Memref.isWhole_whole cc0_scratch3) ((hcond0_0 t).mpr h0) (iblk m c 0 t) (iblk m c 1 t))
    refine (congrFun e3 (ix3 u0 u1 j)).trans ?_
    refine (topoStep_apply (X0 := A0 m c) (X1 := A1 m c) (b := b) (s2 := k0_pay9 (iblk m c 0 t))
      (s3 := k0_pay11 (k0_pay10 (iblk m c 1 t))) t ⟨0, by decide⟩ hk (k0_pay4 (F := Ideal)) hs2 hs3 u0 u1 j).trans ?_
    rw [pay4_apply, Ideal.ofBits_zero_f32, zero_add, h0, Finset.sum_range_one, tileN_of_lt _ 0 (by decide)]
    rfl
  · have es := e_s0.trans (sout_A_0 (F := Ideal) c (grid0.coords t) (ms0_0 t) (hs0_0 t) (ms0_1 t) (hs0_1 t) (ms0_2 t) (hs0_2 t) (ms0_3 t) (hs0_3 t) scM0_0 (Memref.isWhole_whole cc0_scratch0) scM0_1 (Memref.isWhole_whole cc0_scratch1) scM0_2 (Memref.isWhole_whole cc0_scratch2) scM0_3 (Memref.isWhole_whole cc0_scratch3) ((hcond0_0 t).mpr h0) (iblk m c 0 t) (iblk m c 1 t))
    exact (congrFun es (ix2 u j)).trans (hs0 u j)
  · have es := e_s1.trans (sout_A_1 (F := Ideal) c (grid0.coords t) (ms0_0 t) (hs0_0 t) (ms0_1 t) (hs0_1 t) (ms0_2 t) (hs0_2 t) (ms0_3 t) (hs0_3 t) scM0_0 (Memref.isWhole_whole cc0_scratch0) scM0_1 (Memref.isWhole_whole cc0_scratch1) scM0_2 (Memref.isWhole_whole cc0_scratch2) scM0_3 (Memref.isWhole_whole cc0_scratch3) ((hcond0_0 t).mpr h0) (iblk m c 0 t) (iblk m c 1 t))
    exact (congrFun es (ix2 u j)).trans (hs1 u j)
  · have es := e_s2.trans (sout_A_2 (F := Ideal) c (grid0.coords t) (ms0_0 t) (hs0_0 t) (ms0_1 t) (hs0_1 t) (ms0_2 t) (hs0_2 t) (ms0_3 t) (hs0_3 t) scM0_0 (Memref.isWhole_whole cc0_scratch0) scM0_1 (Memref.isWhole_whole cc0_scratch1) scM0_2 (Memref.isWhole_whole cc0_scratch2) scM0_3 (Memref.isWhole_whole cc0_scratch3) ((hcond0_0 t).mpr h0) (iblk m c 0 t) (iblk m c 1 t))
    exact (congrFun es (ix2 n' k)).trans (hs2 n' k)
  · have es := e_s3.trans (sout_A_3 (F := Ideal) c (grid0.coords t) (ms0_0 t) (hs0_0 t) (ms0_1 t) (hs0_1 t) (ms0_2 t) (hs0_2 t) (ms0_3 t) (hs0_3 t) scM0_0 (Memref.isWhole_whole cc0_scratch0) scM0_1 (Memref.isWhole_whole cc0_scratch1) scM0_2 (Memref.isWhole_whole cc0_scratch2) scM0_3 (Memref.isWhole_whole cc0_scratch3) ((hcond0_0 t).mpr h0) (iblk m c 0 t) (iblk m c 1 t))
    exact (congrFun es (ix2 n' k)).trans (hs3 n' k)

/-- Any other point: the scratch is what the point before left, and each accumulator gains the point's tile. -/
theorem next (c : Dev nD) (t : Fin cfg0.N) (h0 : ¬t.val % 8 = 0) (b : Fin 4) (hb : b.val = t.val / 8)
    (ih : Inv m c (t.val - 1) (Nat.lt_of_le_of_lt (Nat.sub_le _ _) t.isLt) b) : Inv m c t.val t.isLt b := by
  have e_o2 : (outsAt0 m c t.val t.isLt).1 = out0_B_2 c (grid0.coords t) (ms0_0 t) (hs0_0 t) (ms0_1 t) (hs0_1 t) (ms0_2 t) (hs0_2 t) (ms0_3 t) (hs0_3 t) scM0_0 (Memref.isWhole_whole cc0_scratch0) scM0_1 (Memref.isWhole_whole cc0_scratch1) scM0_2 (Memref.isWhole_whole cc0_scratch2) scM0_3 (Memref.isWhole_whole cc0_scratch3) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 := by rw [outsAt0_B m c t h0]
  have e_o3 : (outsAt0 m c t.val t.isLt).2.1 = out0_B_3 c (grid0.coords t) (ms0_0 t) (hs0_0 t) (ms0_1 t) (hs0_1 t) (ms0_2 t) (hs0_2 t) (ms0_3 t) (hs0_3 t) scM0_0 (Memref.isWhole_whole cc0_scratch0) scM0_1 (Memref.isWhole_whole cc0_scratch1) scM0_2 (Memref.isWhole_whole cc0_scratch2) scM0_3 (Memref.isWhole_whole cc0_scratch3) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2 := by rw [outsAt0_B m c t h0]
  have e_s0 : (outsAt0 m c t.val t.isLt).2.2.1 = (outsAt0 m c (t.val - 1) (Nat.lt_of_le_of_lt (Nat.sub_le _ _) t.isLt)).2.2.1 := by
    rw [outsAt0_B m c t h0]; dsimp only; unfold sout0_B_0; rfl
  have e_s1 : (outsAt0 m c t.val t.isLt).2.2.2.1 = (outsAt0 m c (t.val - 1) (Nat.lt_of_le_of_lt (Nat.sub_le _ _) t.isLt)).2.2.2.1 := by
    rw [outsAt0_B m c t h0]; dsimp only; unfold sout0_B_1; rfl
  have e_s2 : (outsAt0 m c t.val t.isLt).2.2.2.2.1 = (outsAt0 m c (t.val - 1) (Nat.lt_of_le_of_lt (Nat.sub_le _ _) t.isLt)).2.2.2.2.1 := by
    rw [outsAt0_B m c t h0]; dsimp only; unfold sout0_B_2; rfl
  have e_s3 : (outsAt0 m c t.val t.isLt).2.2.2.2.2 = (outsAt0 m c (t.val - 1) (Nat.lt_of_le_of_lt (Nat.sub_le _ _) t.isLt)).2.2.2.2.2 := by
    rw [outsAt0_B m c t h0]; dsimp only; unfold sout0_B_3; rfl
  have x0e := iblk0_apply m c t b hb
  have x1e := iblk1_apply m c t b hb
  have hlt : t.val % 8 < 8 := Nat.mod_lt _ (by decide)
  have hk : (t.val - 1) % 8 + 1 = t.val % 8 := by omega
  refine ⟨fun u0 u1 j => ?_, fun u0 u1 j => ?_, fun u j => ?_, fun u j => ?_, fun n' k => ?_, fun n' k => ?_⟩
  · have e2 := e_o2.trans (out_B_2 (F := Ideal) c (grid0.coords t) (ms0_0 t) (hs0_0 t) (ms0_1 t) (hs0_1 t) (ms0_2 t) (hs0_2 t) (ms0_3 t) (hs0_3 t) scM0_0 (Memref.isWhole_whole cc0_scratch0) scM0_1 (Memref.isWhole_whole cc0_scratch1) scM0_2 (Memref.isWhole_whole cc0_scratch2) scM0_3 (Memref.isWhole_whole cc0_scratch3) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2)
    refine (congrFun e2 (ix3 u0 u1 j)).trans ?_
    refine (relStep_apply (X0 := A0 m c) (X1 := A1 m c) (b := b) (x0 := iblk m c 0 t) (x1 := iblk m c 1 t)
      (s0 := (outsAt0 m c (t.val - 1) (Nat.lt_of_le_of_lt (Nat.sub_le _ _) t.isLt)).2.2.1) (s1 := (outsAt0 m c (t.val - 1) (Nat.lt_of_le_of_lt (Nat.sub_le _ _) t.isLt)).2.2.2.1) (s2 := (outsAt0 m c (t.val - 1) (Nat.lt_of_le_of_lt (Nat.sub_le _ _) t.isLt)).2.2.2.2.1) (s3 := (outsAt0 m c (t.val - 1) (Nat.lt_of_le_of_lt (Nat.sub_le _ _) t.isLt)).2.2.2.2.2)
      t ⟨t.val % 8, hlt⟩ rfl (outsAt0 m c (t.val - 1) (Nat.lt_of_le_of_lt (Nat.sub_le _ _) t.isLt)).1 x0e x1e ih.s0 ih.s1 ih.s2 ih.s3 u0 u1 j).trans ?_
    rw [ih.o2 0 u1 j, hk, Finset.sum_range_succ, tileN_of_lt _ _ hlt]
    rfl
  · have e3 := e_o3.trans (out_B_3 (F := Ideal) c (grid0.coords t) (ms0_0 t) (hs0_0 t) (ms0_1 t) (hs0_1 t) (ms0_2 t) (hs0_2 t) (ms0_3 t) (hs0_3 t) scM0_0 (Memref.isWhole_whole cc0_scratch0) scM0_1 (Memref.isWhole_whole cc0_scratch1) scM0_2 (Memref.isWhole_whole cc0_scratch2) scM0_3 (Memref.isWhole_whole cc0_scratch3) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2)
    refine (congrFun e3 (ix3 u0 u1 j)).trans ?_
    refine (topoStep_apply (X0 := A0 m c) (X1 := A1 m c) (b := b) (s2 := (outsAt0 m c (t.val - 1) (Nat.lt_of_le_of_lt (Nat.sub_le _ _) t.isLt)).2.2.2.2.1) (s3 := (outsAt0 m c (t.val - 1) (Nat.lt_of_le_of_lt (Nat.sub_le _ _) t.isLt)).2.2.2.2.2)
      t ⟨t.val % 8, hlt⟩ rfl (outsAt0 m c (t.val - 1) (Nat.lt_of_le_of_lt (Nat.sub_le _ _) t.isLt)).2.1 ih.s2 ih.s3 u0 u1 j).trans ?_
    rw [ih.o3 0 u1 j, hk, Finset.sum_range_succ, tileN_of_lt _ _ hlt]
    rfl
  · exact (congrFun e_s0 (ix2 u j)).trans (ih.s0 u j)
  · exact (congrFun e_s1 (ix2 u j)).trans (ih.s1 u j)
  · exact (congrFun e_s2 (ix2 n' k)).trans (ih.s2 n' k)
  · exact (congrFun e_s3 (ix2 n' k)).trans (ih.s3 n' k)

/-- The invariant after every point, by induction on the point. -/
theorem inv (c : Dev nD) : ∀ (n : ℕ) (hn : n < cfg0.N) (b : Fin 4), b.val = n / 8 → Inv m c n hn b
  | 0, hn, b, hb => first m c ⟨0, hn⟩ rfl b hb
  | n + 1, hn, b, hb => by
    by_cases h0 : (n + 1) % 8 = 0
    · exact first m c ⟨n + 1, hn⟩ h0 b hb
    · exact next m c ⟨n + 1, hn⟩ h0 b hb (inv c n (Nat.lt_of_succ_lt hn) b (by omega))

end Cert.KernelIdeal.Acc

end
-- ==== Proof.Final.lean ====
/-
  The two accumulated arrays after the run, and the program's result.

  An output's block is written back once per batch, after the batch's last tile, when it holds at column j the sum of
  all eight tiles; the four blocks tile the [4, 1, 2048] array. The lines after the region sum each array over all its
  entries, divide by 2^24, and add: so the result is the loss of Spec, the eight tiles of 256 rows being the 2048 rows.
-/
import proofs.«175647_j2980707303718_2_alg».proof.Proof.Acc
import Idealize.ShloMosaic.Lib.StableHlo.Run

noncomputable section

open Idealize.ShloMosaic Idealize.ShloMosaic.TcCoe Idealize.SL.Sem
open Idealize.ShloMosaic.Pipeline (Dat)

namespace Cert.KernelIdeal.Final

open Cert.KernelIdeal Cert.KernelIdeal.Gen Cert.KernelIdeal.Step Cert.KernelIdeal.Acc
open Idealize.ShloMosaic.ValueIdx Cert.Spec
open scoped BigOperators

variable (m : (ℓ : Loc nD τ sig) → Buf (Elt Ideal) ℓ) (ρ : Dev nD → PrngReg)

/-- An accumulated [4, 1, 2048] array: at (b, 0, j) the sum of the eight tiles' sums. -/
def arr8 (T : Fin 4 → Fin 2048 → Fin 8 → EReal) : (⟨3, ![4, 1, 2048]⟩ : Shape).Idx → EReal :=
  fun i => ∑ k : Fin 8, T (i 0) (i 2) k

/-- What a batch's last point writes back of output 2: the batch's row of the eight-tile sums. -/
theorem flushed2_eq (c : Dev nD) (t : Fin cfg0.N) (hf : (cfg0.win 2).flush t = true) :
    (dats m 0 c).flushed 2 t = ((cfg0.win 2).blk t).view.read (Elt Ideal) (arr8 (relTile (A0 m c) (A1 m c))) := by
  have h7 : t.val % 8 = 7 := (flush0_2 t).mp hf
  have hN : t.val < 32 := lt_of_lt_of_eq t.isLt N_0
  have hi := index2 t
  have hb : (⟨t.val / 8, by omega⟩ : Fin 4).val = t.val / 8 := rfl
  have I := inv m c t.val t.isLt ⟨t.val / 8, by omega⟩ hb
  show (cfg0.win 2).cut (grid0.coords t) ((dats m 0 c).after 2 t) = _
  rw [after0_2]
  funext y
  show (outsAt0 m c t.val t.isLt).1 y = arr8 (relTile (A0 m c) (A1 m c)) (((cfg0.win 2).blk t).view.emb y)
  have hemb : ((cfg0.win 2).blk t).view.emb y = ix3 (⟨t.val / 8, by omega⟩ : Fin 4) (0 : Fin 1) (y 2) := by
    funext a
    apply Fin.ext
    have h0 : (y 0).val < 1 := (y 0).isLt
    have h1 : (y 1).val < 1 := (y 1).isLt
    match a with
    | ⟨0, _⟩ => show win0_2.index t 0 * 1 + 1 * (y 0).val = t.val / 8; rw [hi.1]; omega
    | ⟨1, _⟩ => show win0_2.index t 1 * 1 + 1 * (y 1).val = 0; rw [hi.2.1]; omega
    | ⟨2, _⟩ => show win0_2.index t 2 * 2048 + 1 * (y 2).val = (y 2).val; rw [hi.2.2]; omega
  have e1 : (outsAt0 m c t.val t.isLt).1 y = _ :=
    (congrArg (outsAt0 m c t.val t.isLt).1 (eq_ix3 (n0 := 1) (n1 := 1) (n2 := 2048) y)).trans (I.o2 (y 0) (y 1) (y 2))
  rw [hemb, e1, h7]
  exact sum_range_tileN _

/-- Every index of output 2's array is in the block its batch's last point writes back. -/
theorem cover2 (i : S4x1x2048.Idx) : ∃ t : Fin cfg0.N, (cfg0.win 2).flush t = true ∧ i ∈ ((cfg0.win 2).blk t).view.set := by
  have h0 : (i 0).val < 4 := (i 0).isLt
  have h1 : (i 1).val < 1 := (i 1).isLt
  have h2 : (i 2).val < 2048 := (i 2).isLt
  have hN : cfg0.N = 32 := N_0
  have hlt : 8 * (i 0).val + 7 < cfg0.N := by omega
  have hi := index2 ⟨8 * (i 0).val + 7, hlt⟩
  have hq : (8 * (i 0).val + 7) / 8 = (i 0).val := by omega
  refine ⟨⟨8 * (i 0).val + 7, hlt⟩, (flush0_2 _).mpr (by show (8 * (i 0).val + 7) % 8 = 7; omega), ?_⟩
  show i ∈ ((View.whole main_v0_0).slice (win0_2.rect ⟨8 * (i 0).val + 7, hlt⟩)).set
  rw [View.set_slice_whole, Rect.mem_set_unit]
  intro a
  match a with
  | ⟨0, _⟩ =>
    show win0_2.index ⟨8 * (i 0).val + 7, hlt⟩ 0 * 1 ≤ (i 0).val ∧ (i 0).val < win0_2.index ⟨8 * (i 0).val + 7, hlt⟩ 0 * 1 + 1
    rw [hi.1]; show (8 * (i 0).val + 7) / 8 * 1 ≤ _ ∧ _ < (8 * (i 0).val + 7) / 8 * 1 + 1; rw [hq]; omega
  | ⟨1, _⟩ =>
    show win0_2.index ⟨8 * (i 0).val + 7, hlt⟩ 1 * 1 ≤ (i 1).val ∧ (i 1).val < win0_2.index ⟨8 * (i 0).val + 7, hlt⟩ 1 * 1 + 1
    rw [hi.2.1]; omega
  | ⟨2, _⟩ =>
    show win0_2.index ⟨8 * (i 0).val + 7, hlt⟩ 2 * 2048 ≤ (i 2).val ∧ (i 2).val < win0_2.index ⟨8 * (i 0).val + 7, hlt⟩ 2 * 2048 + 2048
    rw [hi.2.2]; omega

/-- So output 2's array ends holding the eight-tile sums. -/
theorem final2 (c : Dev nD) : (dats m 0 c).arrAt 2 cfg0.N = arr8 (relTile (A0 m c) (A1 m c)) :=
  (dats m 0 c).arrAt_eq_of_cover 2 (arr8 (relTile (A0 m c) (A1 m c))) (flushed2_eq m c) cover2

/-- What a batch's last point writes back of output 3: the batch's row of the eight-tile sums. -/
theorem flushed3_eq (c : Dev nD) (t : Fin cfg0.N) (hf : (cfg0.win 3).flush t = true) :
    (dats m 0 c).flushed 3 t = ((cfg0.win 3).blk t).view.read (Elt Ideal) (arr8 (topoTile (A0 m c) (A1 m c))) := by
  have h7 : t.val % 8 = 7 := (flush0_3 t).mp hf
  have hN : t.val < 32 := lt_of_lt_of_eq t.isLt N_0
  have hi := index3 t
  have hb : (⟨t.val / 8, by omega⟩ : Fin 4).val = t.val / 8 := rfl
  have I := inv m c t.val t.isLt ⟨t.val / 8, by omega⟩ hb
  show (cfg0.win 3).cut (grid0.coords t) ((dats m 0 c).after 3 t) = _
  rw [after0_3]
  funext y
  show (outsAt0 m c t.val t.isLt).2.1 y = arr8 (topoTile (A0 m c) (A1 m c)) (((cfg0.win 3).blk t).view.emb y)
  have hemb : ((cfg0.win 3).blk t).view.emb y = ix3 (⟨t.val / 8, by omega⟩ : Fin 4) (0 : Fin 1) (y 2) := by
    funext a
    apply Fin.ext
    have h0 : (y 0).val < 1 := (y 0).isLt
    have h1 : (y 1).val < 1 := (y 1).isLt
    match a with
    | ⟨0, _⟩ => show win0_3.index t 0 * 1 + 1 * (y 0).val = t.val / 8; rw [hi.1]; omega
    | ⟨1, _⟩ => show win0_3.index t 1 * 1 + 1 * (y 1).val = 0; rw [hi.2.1]; omega
    | ⟨2, _⟩ => show win0_3.index t 2 * 2048 + 1 * (y 2).val = (y 2).val; rw [hi.2.2]; omega
  have e1 : (outsAt0 m c t.val t.isLt).2.1 y = _ :=
    (congrArg (outsAt0 m c t.val t.isLt).2.1 (eq_ix3 (n0 := 1) (n1 := 1) (n2 := 2048) y)).trans (I.o3 (y 0) (y 1) (y 2))
  rw [hemb, e1, h7]
  exact sum_range_tileN _

/-- Every index of output 3's array is in the block its batch's last point writes back. -/
theorem cover3 (i : S4x1x2048.Idx) : ∃ t : Fin cfg0.N, (cfg0.win 3).flush t = true ∧ i ∈ ((cfg0.win 3).blk t).view.set := by
  have h0 : (i 0).val < 4 := (i 0).isLt
  have h1 : (i 1).val < 1 := (i 1).isLt
  have h2 : (i 2).val < 2048 := (i 2).isLt
  have hN : cfg0.N = 32 := N_0
  have hlt : 8 * (i 0).val + 7 < cfg0.N := by omega
  have hi := index3 ⟨8 * (i 0).val + 7, hlt⟩
  have hq : (8 * (i 0).val + 7) / 8 = (i 0).val := by omega
  refine ⟨⟨8 * (i 0).val + 7, hlt⟩, (flush0_3 _).mpr (by show (8 * (i 0).val + 7) % 8 = 7; omega), ?_⟩
  show i ∈ ((View.whole main_v0_1).slice (win0_3.rect ⟨8 * (i 0).val + 7, hlt⟩)).set
  rw [View.set_slice_whole, Rect.mem_set_unit]
  intro a
  match a with
  | ⟨0, _⟩ =>
    show win0_3.index ⟨8 * (i 0).val + 7, hlt⟩ 0 * 1 ≤ (i 0).val ∧ (i 0).val < win0_3.index ⟨8 * (i 0).val + 7, hlt⟩ 0 * 1 + 1
    rw [hi.1]; show (8 * (i 0).val + 7) / 8 * 1 ≤ _ ∧ _ < (8 * (i 0).val + 7) / 8 * 1 + 1; rw [hq]; omega
  | ⟨1, _⟩ =>
    show win0_3.index ⟨8 * (i 0).val + 7, hlt⟩ 1 * 1 ≤ (i 1).val ∧ (i 1).val < win0_3.index ⟨8 * (i 0).val + 7, hlt⟩ 1 * 1 + 1
    rw [hi.2.1]; omega
  | ⟨2, _⟩ =>
    show win0_3.index ⟨8 * (i 0).val + 7, hlt⟩ 2 * 2048 ≤ (i 2).val ∧ (i 2).val < win0_3.index ⟨8 * (i 0).val + 7, hlt⟩ 2 * 2048 + 2048
    rw [hi.2.2]; omega

/-- So output 3's array ends holding the eight-tile sums. -/
theorem final3 (c : Dev nD) : (dats m 0 c).arrAt 3 cfg0.N = arr8 (topoTile (A0 m c) (A1 m c)) :=
  (dats m 0 c).arrAt_eq_of_cover 3 (arr8 (topoTile (A0 m c) (A1 m c))) (flushed3_eq m c) cover3

/-! ## The total sums -/

/-- The sum of an accumulated array over all its entries is the sum over (b, n, j) of the terms. -/
theorem sum_arr8 (f : Fin 4 → Fin 2048 → Fin 2048 → EReal) :
    ∑ i, arr8 (fun b j k => ∑ r : Fin 256, f b (rowOf k r) j) i = ∑ b : Fin 4, ∑ n : Fin 2048, ∑ j : Fin 2048, f b n j := by
  rw [sum_idx3]
  refine Finset.sum_congr rfl fun b _ => ?_
  rw [Fin.sum_univ_one, Finset.sum_comm (f := fun n j => f b n j)]
  refine Finset.sum_congr rfl fun j _ => ?_
  exact sum_tiles (fun n => f b n j)

/-! ## The lines after the region -/

/-- The program's result: the loss of the two arguments as the region finds them. -/
theorem tail_eq (c : Dev nD) (i : S_.Idx) :
    Pipeline.afterTail₀ cfgs (dats m) 0 (V0 m) [hostOps1] c main_v5 i = Spec.loss (A0 m c) (A1 m c) := by
  unfold Pipeline.afterTail₀
  show StableHlo.after hostOps1 _ (Proc.devRef .tc main_v5) i = _
  have hr : StableHlo.after hostOps1 (Pipeline.withArrays (cfgs 0).spec c (V0 m c) fun w => (dats m 0 c).arrAt w (cfgs 0).N)
        (Proc.devRef .tc main_v5)
      = addf (Host.divf (Host.reduceAdd (F := Ideal) (arr8 (relTile (A0 m c) (A1 m c))) (constant (F := Ideal) S_ .f32 0x00000000#32) reducesTo_S4x1x2048_S_d0_1_2 h_S_)
            (constant (F := Ideal) S_ .f32 0x4B800000#32))
          (Host.divf (Host.reduceAdd (F := Ideal) (arr8 (topoTile (A0 m c) (A1 m c))) (constant (F := Ideal) S_ .f32 0x00000000#32) reducesTo_S4x1x2048_S_d0_1_2 h_S_)
            (constant (F := Ideal) S_ .f32 0x4B800000#32)) := by
    after_results
    rw [show Pipeline.withArrays (cfgs 0).spec c (V0 m c) (fun w => (dats m 0 c).arrAt w (cfgs 0).N) (Proc.devRef .tc main_v0_0) = _ from
        (Pipeline.withArrays_arr spec0 launch0.win.arr_inj c _ _ 2).trans (final2 m c),
      show Pipeline.withArrays (cfgs 0).spec c (V0 m c) (fun w => (dats m 0 c).arrAt w (cfgs 0).N) (Proc.devRef .tc main_v0_1) = _ from
        (Pipeline.withArrays_arr spec0 launch0.win.arr_inj c _ _ 3).trans (final3 m c)]
  rw [hr]
  show Ideal.div (Ideal.hostReduceAdd reducesTo_S4x1x2048_S_d0_1_2 (arr8 (relTile (A0 m c) (A1 m c))) (Ideal.ofBits .f32 0x00000000#32) i) (Ideal.ofBits .f32 0x4B800000#32)
      + Ideal.div (Ideal.hostReduceAdd reducesTo_S4x1x2048_S_d0_1_2 (arr8 (topoTile (A0 m c) (A1 m c))) (Ideal.ofBits .f32 0x00000000#32) i) (Ideal.ofBits .f32 0x4B800000#32) = _
  rw [Ideal.hostReduceAdd_total reducesTo_S4x1x2048_S_d0_1_2 (fun b => b.elim0), Ideal.hostReduceAdd_total reducesTo_S4x1x2048_S_d0_1_2 (fun b => b.elim0),
    Ideal.ofBits_zero_f32, zero_add, zero_add]
  unfold relTile topoTile
  rw [sum_arr8 (fun b n j => relT (A0 m c) (A1 m c) b n j), sum_arr8 (fun b n j => topoT (A0 m c) (A1 m c) b n j)]
  rfl

/-- The run, read: the result at the loss, the arguments unchanged. -/
theorem run : θ_run defs (onTc (τ := τ) (main (F := Ideal))) ⟨m, fun _ => 0, ρ⟩ fun r => ∀ c : Dev nD,
      r.2.mem ((c.tc : Thread nD τ).loc main_v5) = (fun _ => Spec.loss (A0 m c) (A1 m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v5 (Pipeline.mem_restRefs_of main_v5 rfl (by decide))).trans (funext fun i => tail_eq m c i),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Final

end
-- ==== Proof.lean ====
/-
  A structure-preservation loss: for two arrays x0, x1 of shape [4, 2048, 128] (batch, row, feature), the mean over
  (batch b, rows n, j) of (dist x0 (b,n,j) - dist x1 (b,n,j))^2, where dist x (b,n,j) is the square root of
  max (|x(b,n)|^2 + |x(b,j)|^2 - 2 <x(b,n), x(b,j)>) 0, plus the mean of (sigmoid <x0(b,n), x0(b,j)> - sigmoid <x1(b,n), x1(b,j)>)^2.

  The kernel walks a grid of 4 batches by 8 tiles of 256 rows. At a batch's first tile it zeroes two [1, 2048]
  accumulators and keeps, for the batch, the rows' squared norms and the two slabs; at every tile it forms the tile's
  rows' Gram products against all 2048 rows, and adds to each accumulator, column by column, the tile's sum of squared
  differences. The host then sums both [4, 1, 2048] arrays, divides each total by 4 * 2048 * 2048 and adds. The
  reference forms the four [4, 2048, 2048] arrays whole, guards its square root against a zero argument (selecting 0
  there), and takes the two means.

  Over the extended reals the two agree on every input: a change of float format is the identity; the guarded root is
  the root, because the clamped argument is never negative and the root of 0 is 0; the sigmoid is 1 / (1 + exp (-x)) on
  both sides; and a total sum over (b, n, j) may be taken as 8 tiles of 256 rows per column, addition being commutative
  and associative. No finiteness is used.
-/
import proofs.«175647_j2980707303718_2_alg».proof.Defs
import proofs.«175647_j2980707303718_2_alg».proof.Proof.Gen.Kernel
import proofs.«175647_j2980707303718_2_alg».proof.Proof.Gen.Kernel.Skeleton
import proofs.«175647_j2980707303718_2_alg».proof.Proof.Gen.Kernel.Launch
import proofs.«175647_j2980707303718_2_alg».proof.Proof.Gen.Kernel.Points
import proofs.«175647_j2980707303718_2_alg».proof.Proof.Gen.Kernel.Frame
import proofs.«175647_j2980707303718_2_alg».proof.Proof.Gen.KernelIdeal
import proofs.«175647_j2980707303718_2_alg».proof.Proof.Gen.KernelIdeal.Skeleton
import proofs.«175647_j2980707303718_2_alg».proof.Proof.Gen.KernelIdeal.Launch
import proofs.«175647_j2980707303718_2_alg».proof.Proof.Gen.KernelIdeal.Points
import proofs.«175647_j2980707303718_2_alg».proof.Proof.Gen.KernelIdeal.Frame
import proofs.«175647_j2980707303718_2_alg».proof.Proof.Gen.ReferenceIdeal
import proofs.«175647_j2980707303718_2_alg».proof.Proof.Gen.ReferenceIdeal.Run
import proofs.«175647_j2980707303718_2_alg».proof.Proof.Gen.ReferenceIdeal.Read
import proofs.«175647_j2980707303718_2_alg».proof.Proof.Gen.Pre_finite_inputs
import proofs.«175647_j2980707303718_2_alg».proof.Proof.RefSide
import proofs.«175647_j2980707303718_2_alg».proof.Proof.Final
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the loss of the arguments: the kernel's accumulated arrays summed by the host, and the
    reference's two means. -/
theorem algebraic : Cert.algebraic_KernelIdeal_ReferenceIdeal := by
  intro m ρ m' ρ' _ hagree
  refine ⟨fun c _ => Cert.Spec.loss (Cert.KernelIdeal.Acc.A0 m c) (Cert.KernelIdeal.Acc.A1 m c),
    Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v62_eq, (hagree c).1, (hagree c).2]
  funext i
  exact Cert.RefSide.ref_eq _ _ i

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
